-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2049x2048 : Shape := ⟨3, ![16, 2049, 2048]⟩
abbrev S_ : Shape := ⟨0, ![]⟩

class Facts : Prop where
  bcast_S_S16x2049x2048 : S_.BroadcastsInDim S16x2049x2048 (![] : Fin 0 → Fin S16x2049x2048.rank)
  reducesTo_S16x2049x2048_S_d0_1_2 : S16x2049x2048.ReducesTo [0, 1, 2] S_
  h_S_ : 0 < S_.numel

variable [Facts]

def fn {F : FTy → Type} [FloatOps F] (main_arg0 : FVec F S16x2049x2048 .f32) : IVec S_ 1 :=
  let main_v0 : FVec F S16x2049x2048 .f32 := Host.absf main_arg0
  let main_cst : FVec F S_ .f32 := constant S_ .f32 0x7F800000#32
  let main_v1 : FVec F S16x2049x2048 .f32 := broadcastInDim S16x2049x2048 ![] bcast_S_S16x2049x2048 main_cst
  let main_v2 : IVec S16x2049x2048 1 := cmpf .olt main_v0 main_v1
  let main_c : IVec S_ 1 := constantI S_ 1 1#1
  let main_v3 : IVec S_ 1 := (fun x v => Host.reduce IntOp.andi x v reducesTo_S16x2049x2048_S_d0_1_2 h_S_) main_v2 main_c
  main_v3
-- ==== Kernel.lean ====
abbrev S16x2049x2048 : Shape := ⟨3, ![16, 2049, 2048]⟩
abbrev S16x1x2048 : Shape := ⟨3, ![16, 1, 2048]⟩
abbrev S1x2049x512 : Shape := ⟨3, ![1, 2049, 512]⟩
abbrev S1x1x512 : Shape := ⟨3, ![1, 1, 512]⟩
abbrev S512 : Shape := ⟨1, ![512]⟩
abbrev S1x2048x512 : Shape := ⟨3, ![1, 2048, 512]⟩
abbrev S2048x512 : Shape := ⟨2, ![2048, 512]⟩
abbrev S1x1x2048 : Shape := ⟨3, ![1, 1, 2048]⟩
abbrev S2048 : Shape := ⟨1, ![2048]⟩
abbrev S2048x1 : Shape := ⟨2, ![2048, 1]⟩

abbrev nBuf : Space → Nat
  | .hbm => 3
  | .vmem => 12
  | .smem => 0
  | _ => 0

abbrev bufTy : (tb : Table) → Fin (tcTables nBuf tb) → BufTy
  | .hbm, ⟨0, _⟩ => ⟨S16x2049x2048, .f32⟩
  | .hbm, ⟨1, _⟩ => ⟨S16x1x2048, .f32⟩
  | .hbm, ⟨2, _⟩ => ⟨S16x2049x2048, .f32⟩
  | .local _ .vmem, ⟨0, _⟩ => ⟨S1x2049x512, .f32⟩
  | .local _ .vmem, ⟨1, _⟩ => ⟨S1x2049x512, .f32⟩
  | .local _ .vmem, ⟨2, _⟩ => ⟨S1x1x512, .f32⟩
  | .local _ .vmem, ⟨3, _⟩ => ⟨S1x1x512, .f32⟩
  | .local _ .vmem, ⟨4, _⟩ => ⟨S1x2049x512, .f32⟩
  | .local _ .vmem, ⟨5, _⟩ => ⟨S1x2049x512, .f32⟩
  | .local _ .vmem, ⟨6, _⟩ => ⟨S1x1x512, .f32⟩
  | .local _ .vmem, ⟨7, _⟩ => ⟨S1x1x512, .f32⟩
  | .local _ .vmem, ⟨8, _⟩ => ⟨S1x1x2048, .f32⟩
  | .local _ .vmem, ⟨9, _⟩ => ⟨S1x1x2048, .f32⟩
  | .local _ .vmem, ⟨10, _⟩ => ⟨S1x2049x512, .f32⟩
  | .local _ .vmem, ⟨11, _⟩ => ⟨S1x2049x512, .f32⟩
  | _, _ => ⟨S16x2049x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2049x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2049x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2049x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2049x512_S1x1x512_0_0_0 : ∀ a, (![0, 0, 0] : Fin 3 → Nat) a + S1x1x512.size a ≤ S1x2049x512.size a
  h_S1x1x512 : 0 < S1x1x512.numel
  shapeCasts_S1x1x512_S512 : S1x1x512.ShapeCasts S512
  inb_S1x2049x512_S1x2048x512_0_1_0 : ∀ a, (![0, 1, 0] : Fin 3 → Nat) a + S1x2048x512.size a ≤ S1x2049x512.size a
  h_S1x2048x512 : 0 < S1x2048x512.numel
  shapeCasts_S1x2048x512_S2048x512 : S1x2048x512.ShapeCasts S2048x512
  reduces_S2048x512_S512 : S2048x512.Reduces [0] S512
  inb_S1x1x512_S1x1x512_0_0_0 : ∀ a, (![0, 0, 0] : Fin 3 → Nat) a + S1x1x512.size a ≤ S1x1x512.size a
  shapeCasts_S512_S1x1x512 : S512.ShapeCasts S1x1x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S2048x1 : S2048.ShapeCasts S2048x1
  broadcasts_S2048x1_S2048x512 : S2048x1.Broadcasts S2048x512
  shapeCasts_S2048x512_S1x2048x512 : S2048x512.ShapeCasts S1x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2049x512.size a ≤ S16x2049x2048.size a
  hwx0_0 : ∀ i : grid0.Coords, EltTy.bits .f32 = 32 ∨ (Rect.block (s := S16x2049x2048) S1x2049x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x2048.size a
  hwx0_1 : ∀ i : grid0.Coords, EltTy.bits .f32 = 32 ∨ (Rect.block (s := S16x1x2048) S1x1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2049x512.size a ≤ S16x2049x2048.size a
  hwx1_0 : ∀ i : grid1.Coords, EltTy.bits .f32 = 32 ∨ (Rect.block (s := S16x2049x2048) S1x2049x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S16x1x2048.size a
  hwx1_1 : ∀ i : grid1.Coords, EltTy.bits .f32 = 32 ∨ (Rect.block (s := S16x1x2048) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S16x1x2048.size a
  hwx1_2 : ∀ i : grid1.Coords, EltTy.bits .f32 = 32 ∨ (Rect.block (s := S16x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2049x512.size a ≤ S16x2049x2048.size a
  hwx1_3 : ∀ i : grid1.Coords, EltTy.bits .f32 = 32 ∨ (Rect.block (s := S16x2049x2048) S1x2049x512.size (cc1_transform_3 i) (hinb1_3 i)).WholeWords (EltTy.packing .f32)

variable [Facts₀]

abbrev win0_0 : Pipeline.Window sig grid0 :=
  Pipeline.Window.ofSpec (Memref.whole main_arg0) S1x2049x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x2049x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2049x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2049x2048 : Shape := ⟨3, ![16, 2049, 2048]⟩
abbrev S16x1x2048 : Shape := ⟨3, ![16, 1, 2048]⟩
abbrev S16x2048 : Shape := ⟨2, ![16, 2048]⟩
abbrev S16x2048x2048 : Shape := ⟨3, ![16, 2048, 2048]⟩
abbrev S_ : Shape := ⟨0, ![]⟩
abbrev S16x2048x1 : Shape := ⟨3, ![16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x2049x2048, .f32⟩
  | .hbm, ⟨1, _⟩ => ⟨S16x1x2048, .f32⟩
  | .hbm, ⟨2, _⟩ => ⟨S16x2048, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x1x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2049x2048, .f32⟩
  | _, _ => ⟨S16x2049x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  slices_S16x2049x2048_S16x1x2048_0_0_0 : S16x2049x2048.Slices ![0, 0, 0] S16x1x2048
  shapeCasts_S16x1x2048_S16x2048 : S16x1x2048.ShapeCasts S16x2048
  slices_S16x2049x2048_S16x2048x2048_0_1_0 : S16x2049x2048.Slices ![0, 1, 0] S16x2048x2048
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x1x2048_S16x2048x2048_S16x2049x2048_d1 : Shape.Concatenates [S16x1x2048, S16x2048x2048] S16x2049x2048 1

variable [Facts₀]

class Facts : Prop extends Facts₀ where

variable [Facts]
-- ==== Proof.NormRegionK.lean ====
/-
  The first kernel region: the weights. Its grid has 16 × 4 points; at point (b, ct) the pipeline stages the
  2049 × 512 block of batch `b`, columns 512·ct … 512·ct + 511, of the argument, and the body writes the
  1 × 512 block of weights of those columns: the logistic function of the block's row 0 minus the column sums
  of the absolute values of its rows 1 … 2048.

  Everything here is stated at a parameter `V`, the contents of the core's buffers when the region is entered,
  and at any float instance. The body reads its input block through two rectangles (row 0; rows 1 … 2048),
  also reads the output buffer's previous contents, which it never uses, and overwrites the whole output buffer
  with one store: so what it leaves is a function of the input block alone.
-/
import proofs.«164435_j2723009265989_2_alg».proof.Proof.Gen.Kernel.Launch
import proofs.«164435_j2723009265989_2_alg».proof.Proof.Gen.Kernel.Skeleton
import proofs.«164435_j2723009265989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section NormRegion

variable (V : (c : Dev nD) → (b : Ref sig .tc) → Buf (Elt F) ((c : Thread nD τ).loc b))

/-- The block of window `w` at grid point `t`, read off the window's array as the region finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body
    leaves the block where it found it. -/
theorem normIn_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- Row 0 of the input block, rows 1 … 2048 of it, and the whole output block. -/
abbrev normPadRect : Rect S1x2049x512 := Rect.unit (s := S1x2049x512) ![0, 0, 0] S1x1x512.size inb_S1x2049x512_S1x1x512_0_0_0
abbrev normSigRect : Rect S1x2049x512 := Rect.unit (s := S1x2049x512) ![0, 1, 0] S1x2048x512.size inb_S1x2049x512_S1x2048x512_0_1_0
abbrev normOutRect : Rect S1x1x512 := Rect.unit (s := S1x1x512) ![0, 0, 0] S1x1x512.size inb_S1x1x512_S1x1x512_0_0_0

/-- What the body leaves in the output buffer, from the input block: its one store. -/
def normOut (x0 : Vec F S1x2049x512 .f32) : Vec F S1x1x512 .f32 :=
  View.canon [⟨normOutRect, k0_pay1 (View.ld x0 normPadRect) (View.ld x0 normSigRect)⟩]

/-- The store covers the output buffer. -/
theorem normOut_cover (p0 : Vec F S1x1x512 .f32) (y : S1x1x512.Idx) :
    ∃ pc ∈ ([⟨normOutRect, p0⟩] : List (View.Piece (Elt F) S1x1x512 .f32)), y ∈ pc.1.set :=
  View.cover_of_tiled [⟨normOutRect, p0⟩] S1x1x512.size (by rfl) y

set_option maxHeartbeats 1000000 in
/-- The body on whole staging buffers, the input's reading `x0` and the output's holding anything: it ends with the
    input's as it was and the output's at `normOut x0`. -/
theorem normKernel_run (c : Dev nD) (E : Set ℕ) (i : grid0.Coords) (arg2 : Memref sig .tc .vmem S1x2049x512 .f32) (harg2 : arg2.IsWhole)
    (arg3 : Memref sig .tc .vmem S1x1x512 .f32) (harg3 : arg3.IsWhole)
    (x0 : Vec F S1x2049x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (normOut x0)) -∗ K ⟨⟩))
      ⊢ wp frame (wpE (defs₀ (F := F)) Variants.none c none) E (cc0__norm_kernel i arg2 harg2 arg3 harg3) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normOut_cover _)

/-- The proof data of the first region on core `c`: the arrays as found; after the body the input's buffer at its
    block and the output's at `normOut` of that block; the invariant is the scoped buffers the region does not
    stage and the generator register, untouched; nothing owed; full shares. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normOut (normBlk V c 0 t)
  Φ _ := Pipeline.ΦA spec0 c
  q _ := fullShare
  owed _ := 0

theorem normDat_A (c : Dev nD) (w : Fin cfg0.W) : (normDat V c).A w = V c (Pipeline.arrRef spec0 w) := by
  dsimp only [normDat]
theorem normDat_after0 (c : Dev nD) (t : Fin cfg0.N) : (normDat V c).after 0 t = normBlk V c 0 t := by dsimp only [normDat]
theorem normDat_after1 (c : Dev nD) (t : Fin cfg0.N) : (normDat V c).after 1 t = normOut (normBlk V c 0 t) := by dsimp only [normDat]
theorem normDat_before0 (c : Dev nD) (t : Fin cfg0.N) (d) : (normDat V c).before 0 t d = normBlk V c 0 t :=
  normIn_of V (normDat V c) (normDat_A V c 0) (normDat_after0 V c) t d

/-- What the body is called with at point `t`, the windows one by one, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t))

theorem normBody_run (c : Dev nD) (t : Fin cfg0.N) :
    normPre V c t ⊢ wp frame (wpE (defs₀ (F := F)) Variants.none c none) Set.univ (bodyAt0 t) (fun _ => normPost V c t) := by
  unfold normPre normPost bodyAt0
  simp only [normDat_before0]
  rw [show (normDat V c).Φ t.succ = (normDat V c).Φ t.castSucc from rfl,
    show (normDat V c).owesAt () t.succ = (normDat V c).owesAt () t.castSucc from rfl,
    normDat_after0, normDat_after1]
  iintro ⟨HΦ, Ho, ⟨%d0, H0⟩, ⟨%d1, H1⟩⟩
  iapply (normKernel_run c Set.univ _ _ _ _ _ (normBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem normObligation (c : Dev nD) : BodyObligation (normDat (F := F) V c) (defs₀ (F := F)) Variants.none () Set.univ := fun t => by
  rw [bigSep_W0, bigSep_W0]
  exact normBody_run V c t

end NormRegion

end Cert.Kernel.Hand

end
-- ==== Proof.ApplyRegionK.lean ====
/-
  The second kernel region: the gating. Its grid has 16 × 4 points; at point (b, ct) the pipeline stages the
  2049 × 512 block of batch `b`, columns 512·ct … 512·ct + 511, of the argument, the 1 × 512 block of the
  weights of those columns, and the whole 1 × 2048 weight row of batch `b` (which changes only with `b`, so
  it is fetched at every fourth point and otherwise found where the previous point left it). The body writes
  the 2049 × 512 result block: row 0 is the column weights times the block's row 0; row 1 + k is
  (1 − weight k of the batch) times the block's row 1 + k.

  The column weights and the weight row are two windows onto ONE array, the first region's result. Both only
  read it, so the proof data gives each window half of the array's share.

  Everything here is stated at a parameter `V`, the contents of the core's buffers when the region is entered,
  and at any float instance. The body reads the result buffer's previous contents before each of its two stores
  and never uses what it read; the two stores cover the result block (row 0; rows 1 … 2048), so what the body
  leaves is a function of the three input blocks alone.
-/
import proofs.«164435_j2723009265989_2_alg».proof.Proof.Gen.Kernel.Launch
import proofs.«164435_j2723009265989_2_alg».proof.Proof.Gen.Kernel.Skeleton
import proofs.«164435_j2723009265989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section ApplyRegion

variable (V : (c : Dev nD) → (b : Ref sig .tc) → Buf (Elt F) ((c : Thread nD τ).loc b))

/-- The block of window `w` at grid point `t`, read off the window's array as the region finds it. -/
def applyBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (an unfetched window's
    block index has not moved), for any proof data over `V` whose body leaves the block where it found it. -/
theorem applyIn0_of {c : Dev nD} (dat : Dat τ (Elt F) Unit ℕ (UR sig nD τ) ℕ cfg1 c) (hA : dat.A 0 = V c (Pipeline.arrRef spec1 0))
    (hafter : ∀ t, dat.after 0 t = applyBlk V c 0 t) (t : Fin cfg1.N) (d) : dat.before 0 t d = applyBlk V c 0 t :=
  (dat.before_in_eq_fetched 0 rfl (fun _ => rfl) (fun _ _ _ => rfl) (fun t => by rw [hafter]; unfold Dat.blockOf applyBlk; rw [hA]; try rfl) t d).trans
    (by unfold Dat.fetched Dat.blockOf applyBlk; rw [hA]; try rfl)
theorem applyIn1_of {c : Dev nD} (dat : Dat τ (Elt F) Unit ℕ (UR sig nD τ) ℕ cfg1 c) (hA : dat.A 1 = V c (Pipeline.arrRef spec1 1))
    (hafter : ∀ t, dat.after 1 t = applyBlk V c 1 t) (t : Fin cfg1.N) (d) : dat.before 1 t d = applyBlk V c 1 t :=
  (dat.before_in_eq_fetched 1 rfl (fun _ => rfl) (fun _ _ _ => rfl) (fun t => by rw [hafter]; unfold Dat.blockOf applyBlk; rw [hA]; try rfl) t d).trans
    (by unfold Dat.fetched Dat.blockOf applyBlk; rw [hA]; try rfl)
theorem applyIn2_of {c : Dev nD} (dat : Dat τ (Elt F) Unit ℕ (UR sig nD τ) ℕ cfg1 c) (hA : dat.A 2 = V c (Pipeline.arrRef spec1 2))
    (hafter : ∀ t, dat.after 2 t = applyBlk V c 2 t) (t : Fin cfg1.N) (d) : dat.before 2 t d = applyBlk V c 2 t :=
  (dat.before_in_eq_fetched 2 rfl (fun _ => rfl) (fun _ _ _ => rfl) (fun t => by rw [hafter]; unfold Dat.blockOf applyBlk; rw [hA]; try rfl) t d).trans
    (by unfold Dat.fetched Dat.blockOf applyBlk; rw [hA]; try rfl)

/-- Row 0 and rows 1 … 2048 of a 2049 × 512 block; the whole column-weight block; the whole weight row. -/
abbrev applyPadRect : Rect S1x2049x512 := Rect.unit (s := S1x2049x512) ![0, 0, 0] S1x1x512.size inb_S1x2049x512_S1x1x512_0_0_0
abbrev applySigRect : Rect S1x2049x512 := Rect.unit (s := S1x2049x512) ![0, 1, 0] S1x2048x512.size inb_S1x2049x512_S1x2048x512_0_1_0
abbrev applyColRect : Rect S1x1x512 := Rect.unit (s := S1x1x512) ![0, 0, 0] S1x1x512.size inb_S1x1x512_S1x1x512_0_0_0
abbrev applyRowRect : Rect S1x1x2048 := Rect.unit (s := S1x1x2048) ![0, 0, 0] S1x1x2048.size inb_S1x1x2048_S1x1x2048_0_0_0

/-- What the body leaves in the result buffer, from the three input blocks: its two stores, the later one first. -/
def applyOut (x0 : Vec F S1x2049x512 .f32) (x1 : Vec F S1x1x512 .f32) (x2 : Vec F S1x1x2048 .f32) : Vec F S1x2049x512 .f32 :=
  View.canon [⟨applySigRect, k1_pay2 (View.ld x0 applySigRect) (View.ld x2 applyRowRect)⟩,
    ⟨applyPadRect, k1_pay1 (View.ld x0 applyPadRect) (View.ld x1 applyColRect)⟩]

/-- The two stores cover the result buffer: an index is in row 0 or in one of the rows 1 … 2048. -/
theorem applyOut_cover (p0 : Vec F S1x2048x512 .f32) (p1 : Vec F S1x1x512 .f32) (y : S1x2049x512.Idx) :
    ∃ pc ∈ ([⟨applySigRect, p0⟩, ⟨applyPadRect, p1⟩] : List (View.Piece (Elt F) S1x2049x512 .f32)), y ∈ pc.1.set := by
  have h0 : (y 0).val < 1 := (y 0).isLt
  have h1 : (y 1).val < 2049 := (y 1).isLt
  have h2 : (y 2).val < 512 := (y 2).isLt
  by_cases h : (y 1).val = 0
  · refine ⟨⟨applyPadRect, p1⟩, List.mem_cons_of_mem _ List.mem_cons_self, ?_⟩
    refine (Rect.mem_set_unit (s := S1x2049x512) (off := ![0, 0, 0]) (size := S1x1x512.size) (inb := inb_S1x2049x512_S1x1x512_0_0_0) (i := y)).mpr fun a => ?_
    match a with
    | ⟨0, _⟩ => exact ⟨Nat.zero_le _, by show (y 0).val < 0 + 1; omega⟩
    | ⟨1, _⟩ => exact ⟨Nat.zero_le _, by show (y 1).val < 0 + 1; omega⟩
    | ⟨2, _⟩ => exact ⟨Nat.zero_le _, by show (y 2).val < 0 + 512; omega⟩
  · refine ⟨⟨applySigRect, p0⟩, List.mem_cons_self, ?_⟩
    refine (Rect.mem_set_unit (s := S1x2049x512) (off := ![0, 1, 0]) (size := S1x2048x512.size) (inb := inb_S1x2049x512_S1x2048x512_0_1_0) (i := y)).mpr fun a => ?_
    match a with
    | ⟨0, _⟩ => exact ⟨Nat.zero_le _, by show (y 0).val < 0 + 1; omega⟩
    | ⟨1, _⟩ => exact ⟨by show 1 ≤ (y 1).val; omega, by show (y 1).val < 1 + 2048; omega⟩
    | ⟨2, _⟩ => exact ⟨Nat.zero_le _, by show (y 2).val < 0 + 512; omega⟩

set_option maxHeartbeats 1000000 in
/-- The body on whole staging buffers, the inputs' reading `x0`, `x1`, `x2` and the result's holding anything: it ends
    with the inputs' as they were and the result's at `applyOut x0 x1 x2`. -/
theorem applyKernel_run (c : Dev nD) (E : Set ℕ) (i : grid1.Coords) (arg2 : Memref sig .tc .vmem S1x2049x512 .f32) (harg2 : arg2.IsWhole)
    (arg3 : Memref sig .tc .vmem S1x1x512 .f32) (harg3 : arg3.IsWhole) (arg4 : Memref sig .tc .vmem S1x1x2048 .f32) (harg4 : arg4.IsWhole)
    (arg5 : Memref sig .tc .vmem S1x2049x512 .f32) (harg5 : arg5.IsWhole)
    (x0 : Vec F S1x2049x512 .f32) (x1 : Vec F S1x1x512 .f32) (x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (applyOut x0 x1 x2)) -∗ K ⟨⟩))
      ⊢ wp frame (wpE (defs₀ (F := F)) Variants.none c none) E (cc1__apply_kernel i arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (applyOut_cover _ _)

/-- The proof data of the second region on core `c`: the arrays as found; after the body each input's buffer at its
    block and the result's at `applyOut` of the three blocks; the invariant is the scoped buffers the region does
    not stage and the generator register, untouched; nothing owed. The argument is held whole; the weights' array
    is read through two windows, each holding one half of it. -/
def applyDat (c : Dev nD) : Dat τ (Elt F) Unit ℕ (UR sig nD τ) ℕ cfg1 c where
  A w := V c (Pipeline.arrRef spec1 w)
  after w t := match w with
    | ⟨0, _⟩ => applyBlk V c 0 t
    | ⟨1, _⟩ => applyBlk V c 1 t
    | ⟨2, _⟩ => applyBlk V c 2 t
    | ⟨3, _⟩ => applyOut (applyBlk V c 0 t) (applyBlk V c 1 t) (applyBlk V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem applyDat_A (c : Dev nD) (w : Fin cfg1.W) : (applyDat V c).A w = V c (Pipeline.arrRef spec1 w) := by
  dsimp only [applyDat]
theorem applyDat_after0 (c : Dev nD) (t : Fin cfg1.N) : (applyDat V c).after 0 t = applyBlk V c 0 t := by dsimp only [applyDat]
theorem applyDat_after1 (c : Dev nD) (t : Fin cfg1.N) : (applyDat V c).after 1 t = applyBlk V c 1 t := by dsimp only [applyDat]
theorem applyDat_after2 (c : Dev nD) (t : Fin cfg1.N) : (applyDat V c).after 2 t = applyBlk V c 2 t := by dsimp only [applyDat]
theorem applyDat_after3 (c : Dev nD) (t : Fin cfg1.N) :
    (applyDat V c).after 3 t = applyOut (applyBlk V c 0 t) (applyBlk V c 1 t) (applyBlk V c 2 t) := by dsimp only [applyDat]
theorem applyDat_before0 (c : Dev nD) (t : Fin cfg1.N) (d) : (applyDat V c).before 0 t d = applyBlk V c 0 t :=
  applyIn0_of V (applyDat V c) (applyDat_A V c 0) (applyDat_after0 V c) t d
theorem applyDat_before1 (c : Dev nD) (t : Fin cfg1.N) (d) : (applyDat V c).before 1 t d = applyBlk V c 1 t :=
  applyIn1_of V (applyDat V c) (applyDat_A V c 1) (applyDat_after1 V c) t d
theorem applyDat_before2 (c : Dev nD) (t : Fin cfg1.N) (d) : (applyDat V c).before 2 t d = applyBlk V c 2 t :=
  applyIn2_of V (applyDat V c) (applyDat_A V c 2) (applyDat_after2 V c) t d

/-- What the body is called with at point `t`, the windows one by one, -/
def applyPre (c : Dev nD) (t : Fin cfg1.N) : sProp 𝕄 :=
  iprop((applyDat V c).Φ t.castSucc ∗ (applyDat V c).owesAt () t.castSucc
    ∗ (∃ d, owns (c : Thread nD τ) (st1_0 t) fullShare ((applyDat V c).before 0 t d))
    ∗ (∃ d, owns (c : Thread nD τ) (st1_1 t) fullShare ((applyDat V c).before 1 t d))
    ∗ (∃ d, owns (c : Thread nD τ) (st1_2 t) fullShare ((applyDat V c).before 2 t d))
    ∗ (∃ d, owns (c : Thread nD τ) (st1_3 t) fullShare ((applyDat V c).before 3 t d)))

/-- and what it returns. -/
def applyPost (c : Dev nD) (t : Fin cfg1.N) : sProp 𝕄 :=
  iprop((applyDat V c).Φ t.succ ∗ (applyDat V c).owesAt () t.succ
    ∗ owns (c : Thread nD τ) (st1_0 t) fullShare ((applyDat V c).after 0 t)
    ∗ owns (c : Thread nD τ) (st1_1 t) fullShare ((applyDat V c).after 1 t)
    ∗ owns (c : Thread nD τ) (st1_2 t) fullShare ((applyDat V c).after 2 t)
    ∗ owns (c : Thread nD τ) (st1_3 t) fullShare ((applyDat V c).after 3 t))

theorem applyBody_run (c : Dev nD) (t : Fin cfg1.N) :
    applyPre V c t ⊢ wp frame (wpE (defs₀ (F := F)) Variants.none c none) Set.univ (bodyAt1 t) (fun _ => applyPost V c t) := by
  unfold applyPre applyPost bodyAt1
  simp only [applyDat_before0, applyDat_before1, applyDat_before2]
  rw [show (applyDat V c).Φ t.succ = (applyDat V c).Φ t.castSucc from rfl,
    show (applyDat V c).owesAt () t.succ = (applyDat V c).owesAt () t.castSucc from rfl,
    applyDat_after0, applyDat_after1, applyDat_after2, applyDat_after3]
  iintro ⟨HΦ, Ho, ⟨%d0, H0⟩, ⟨%d1, H1⟩, ⟨%d2, H2⟩, ⟨%d3, H3⟩⟩
  iapply (applyKernel_run c Set.univ _ _ _ _ _ _ _ _ _ (applyBlk V c 0 t) (applyBlk V c 1 t) (applyBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second region, at every point. -/
theorem applyObligation (c : Dev nD) : BodyObligation (applyDat (F := F) V c) (defs₀ (F := F)) Variants.none () Set.univ := fun t => by
  rw [bigSep_W1, bigSep_W1]
  exact applyBody_run V c t

end ApplyRegion

end Cert.Kernel.Hand

end
-- ==== Proof.RunK.lean ====
/-
  The run of the whole program: two kernel regions, one after the other, with nothing between them.

  Between regions a core holds its unscoped buffers — the argument, the weights and the result — whole, at
  contents this file names: at launch the memory the program is started from; after the first region the same
  with the weights array at what that region's write-backs left; after the second region the same again with
  the result array at what its write-backs left. The first region's arrays are two distinct buffers. The second
  region reads the weights array through two windows: at its entry that buffer is split into two halves, one per
  window, and at its exit the halves, both still holding what they held, are joined again.

  The conclusion names every unscoped buffer's final contents, so both the frame claim (the argument ends as
  launched) and the value of the result are read off it.
-/
import proofs.«164435_j2723009265989_2_alg».proof.Proof.NormRegionK
import proofs.«164435_j2723009265989_2_alg».proof.Proof.ApplyRegionK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffers' contents at the three boundaries -/

/-- Core `c`'s buffers at launch. -/
abbrev bufsAtLaunch : Dev nD → Valuation τ sig (Elt F) := fun c b => (s₀ m ρ).mem ((c : Dev nD), b)
/-- The same read at the core's references: what the first region is entered from. -/
abbrev entryNorm : (c : Dev nD) → (b : Ref sig .tc) → Buf (Elt F) ((c : Thread nD τ).loc b) := fun c b => bufsAtLaunch m ρ c b

/-- After the first region: its arrays at what the pipeline leaves, every other buffer as entered. -/
def bufsAfterNorm (c : Dev nD) : Valuation τ sig (Elt F) :=
  Pipeline.withArrays spec0 c (bufsAtLaunch m ρ c) fun w => (normDat (entryNorm m ρ) c).arrAt w cfg0.N
theorem bufsAfterNorm_arr (c : Dev nD) (w : Fin cfg0.W) :
    bufsAfterNorm m ρ c (Proc.devRef .tc (Pipeline.arrRef spec0 w)) = (normDat (entryNorm m ρ) c).arrAt w cfg0.N := by
  unfold bufsAfterNorm; exact Pipeline.withArrays_arr spec0 launch0.win.arr_inj c _ _ w
theorem bufsAfterNorm_of_ne (c : Dev nD) (b : Ref sig .tc) (hb : ∀ w, Pipeline.arrRef spec0 w ≠ b) :
    bufsAfterNorm m ρ c (Proc.devRef .tc b) = bufsAtLaunch m ρ c (Proc.devRef .tc b) := by
  unfold bufsAfterNorm; exact Pipeline.withArrays_of_ne spec0 c _ _ b hb
/-- The same read at the core's references: what the second region is entered from. -/
abbrev entryApply : (c : Dev nD) → (b : Ref sig .tc) → Buf (Elt F) ((c : Thread nD τ).loc b) := fun c b => bufsAfterNorm m ρ c b
theorem normExit_arr (c : Dev nD) (w : Fin cfg0.W) :
    (normDat (entryNorm m ρ) c).arrAt w cfg0.N = entryApply m ρ c (Pipeline.arrRef spec0 w) :=
  (bufsAfterNorm_arr m ρ c w).symm
theorem normExit_rest (c : Dev nD) : ∀ b, b ∉ Finset.univ.image (Pipeline.arrRef spec0) → entryApply m ρ c b = entryNorm m ρ c b :=
  fun b hb => bufsAfterNorm_of_ne m ρ c b fun w e => hb (Finset.mem_image.mpr ⟨w, Finset.mem_univ _, e⟩)

/-- After the second region: the result array at what the pipeline leaves, every other buffer as entered. -/
def bufsAfterApply (c : Dev nD) : Valuation τ sig (Elt F) :=
  Function.update (bufsAfterNorm m ρ c) (Proc.devRef .tc main_v1)
    ((applyDat (entryApply m ρ) c).arrAt 3 cfg1.N : Buf (Elt F) ((c : Thread nD τ).loc main_v1))
theorem bufsAfterApply_result (c : Dev nD) :
    bufsAfterApply m ρ c (Proc.devRef .tc main_v1) = (applyDat (entryApply m ρ) c).arrAt 3 cfg1.N := by
  unfold bufsAfterApply; exact Function.update_self ..
theorem bufsAfterApply_of_ne (c : Dev nD) (b : Ref sig .tc) (hb : b ≠ main_v1) :
    bufsAfterApply m ρ c (Proc.devRef .tc b) = bufsAfterNorm m ρ c (Proc.devRef .tc b) := by
  unfold bufsAfterApply
  exact Function.update_of_ne (StableHlo.devRef_ne_of_ne hb) _ _

/-! ## The second region's arrays out of the unscoped buffers, and back -/

section Shares

variable (V : (c : Dev nD) → (b : Ref sig .tc) → Buf (Elt F) ((c : Thread nD τ).loc b))

/-- The core's unscoped buffers are the argument, the weights and the result: a conjunction over them, one by one. -/
theorem bigSep_unscoped {M : Type} [URA M] (Φ : Ref sig .tc → sProp M) :
    bigSep (Finset.univ.filter fun b : Ref sig .tc => ¬ b.isScoped) Φ = iprop(Φ main_arg0 ∗ Φ main_v0 ∗ Φ main_v1) :=
  bigSep_eq_bigSepL_of_eq [main_arg0, main_v0, main_v1] (by decide) (by decide) Φ

/-- The shares the second region's proof data holds its four arrays at. -/
theorem applyShare0 (c : Dev nD) : (applyDat V c).share 0 = fullShare := rfl
theorem applyShare1 (c : Dev nD) : (applyDat V c).share 1 = fullShare.left := rfl
theorem applyShare2 (c : Dev nD) : (applyDat V c).share 2 = fullShare.right := rfl
theorem applyShare3 (c : Dev nD) : (applyDat V c).share 3 = fullShare := rfl

/-- ENTRY: the three unscoped buffers, whole, make the second region's four arrays at the proof data's entry
    contents: the argument and the result each one window's, the weights split into the two halves its two
    windows hold. -/
theorem applyArrays_of_bufs (c : Dev nD) :
    (unscopedBufs (Ix := Unit) (Name := ℕ) (U := UR sig nD τ) (Lvl := ℕ) c (V c) : sProp 𝕄)
      ⊢ (applyDat V c).arrays ((applyDat V c).arrAt · 0) := by
  unfold unscopedBufs Pipeline.Dat.arrays
  rw [bigSep_W1, bigSep_unscoped, (arr_whole1 0).set_eq_univ, (arr_whole1 1).set_eq_univ,
    (arr_whole1 3).set_eq_univ, applyShare0, applyShare1, applyShare2, applyShare3]
  iintro ⟨H0, Hw, H1⟩
  ihave Hs := (pointsTo_share (PosShare.mem_left_op_right fullShare)).1 $$ Hw
  icases Hs with ⟨Hl, Hr⟩
  isplitl [H0]; · iexact H0
  isplitl [Hl]; · iexact Hl
  isplitl [Hr]; · iexact Hr
  iexact H1

/-- EXIT: the four arrays after the last point — the three inputs' as entered, the result's at what the write-backs
    left — make the three unscoped buffers whole again, at any contents `V'` that has the result there and agrees
    with the entry contents elsewhere: the two halves of the weights, holding the same contents, are joined. -/
theorem bufs_of_applyArrays (c : Dev nD) (V' : (b : Ref sig .tc) → Buf (Elt F) ((c : Thread nD τ).loc b))
    (h0 : V' main_arg0 = V c main_arg0) (hw : V' main_v0 = V c main_v0) (h1 : V' main_v1 = (applyDat V c).arrAt 3 cfg1.N) :
    (applyDat V c).arrays ((applyDat V c).arrAt · cfg1.N)
      ⊢ (unscopedBufs (Ix := Unit) (Name := ℕ) (U := UR sig nD τ) (Lvl := ℕ) c V' : sProp 𝕄) := by
  unfold unscopedBufs Pipeline.Dat.arrays
  rw [bigSep_W1, bigSep_unscoped, (arr_whole1 0).set_eq_univ, (arr_whole1 1).set_eq_univ,
    (arr_whole1 3).set_eq_univ, applyShare0, applyShare1, applyShare2, applyShare3, h0, hw, h1]
  beta_reduce
  rw [(applyDat V c).arrAt_in 0 rfl, (applyDat V c).arrAt_in 1 rfl, (applyDat V c).arrAt_in 2 rfl]
  iintro ⟨H0, Hl, Hr, H1⟩
  ihave Hw := (pointsTo_share (PosShare.mem_left_op_right fullShare)).2 $$ [Hl Hr]
  · isplitl [Hl]; · iexact Hl
    iexact Hr
  isplitl [H0]; · iexact H0
  isplitl [Hw]; · iexact Hw
  iexact H1

end Shares

/-! ## The proof data of both regions, and what rides beside the buffers -/

/-- Neither region has a prefetched table. -/
abbrev noTables : (p : Fin 2) → (pcfgs (F := F) p).Adm := fun p => (cfgs p).toPCfg_adm
/-- Each region's proof data at the contents it is entered from. -/
def regionDats : (p : Fin 2) → (c : Dev nD) → Dat τ (Elt F) Unit ℕ (UR sig nD τ) ℕ (Pipeline.pin (pcfgs (F := F)) noTables p) c
  | ⟨0, _⟩ => fun c => normDat (entryNorm m ρ) c
  | ⟨1, _⟩ => fun c => applyDat (entryApply m ρ) c
abbrev noVariants : Variants := Variants.none
/-- No core owes another anything: no level is assigned. -/
abbrev noLevels : GSem nD τ sig → Finset Unit := fun _ => ∅
abbrev levelZero : GSem nD τ sig → Unit → ℕ := fun _ _ => 0
/-- Beside the buffers, through both regions: the core's generator register at some state, and nothing owed. -/
abbrev riding (c : Dev nD) : sProp 𝕄 := iprop((∃ r, prngReg c r) ∗ ∃ W, owes (c : Thread nD τ) (0 : CellTallies nD τ sig Unit) W)
/-- The last state, without the debts: every unscoped buffer at its final contents, the generator register at some state. -/
abbrev lastState (c : Dev nD) : sProp 𝕄 :=
  iprop(StableHlo.held (c : Thread nD τ) (Pipeline.ucRefs τ sig) (bufsAfterApply m ρ c) ∗ ∃ r, prngReg c r)
/-- An unscoped reference of the core is among those the state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments of the run -/

set_option backward.isDefEq.respectTransparency.types false in
/-- The first region: entered from the launch contents, left with the weights array at what its write-backs leave. Its
    two arrays are distinct buffers, split out of the unscoped buffers and put back; the generator register goes
    into the region's invariant and comes back; nothing is owed; the kernel has no semaphore of its own. -/
def normSeg : Pipeline.RegionSeg (pcfgs (F := F)) noTables (regionDats m ρ) () defs₀ noVariants noLevels levelZero 0 where
  win := launch0.win.to₀
  block_pos := launch0.block_pos
  stage_whole := launch0.stage_whole
  K := PEmpty
  osem k := k.elim
  ho := Pipeline.OwnSemFacts.none _
  hbody c := (normObligation (entryNorm m ρ) c).loose
  hwaits := Pipeline.hwaits_of_owed_zero _ _ _ _ noLevels levelZero 0 fun _ _ => rfl
  pre c := iprop(StableHlo.held (c : Thread nD τ) (Pipeline.ucRefs τ sig) (bufsAtLaunch m ρ c) ∗ riding c)
  post c := iprop(StableHlo.held (c : Thread nD τ) (Pipeline.ucRefs τ sig) (bufsAfterNorm m ρ c) ∗ riding c)
  X c := iprop(∃ r, prngReg c r)
  Y c := iprop(∃ r, prngReg c r)
  Z c := Pipeline.unscopedRest (Ix := Unit) (Name := ℕ) (U := UR sig nD τ) (Lvl := ℕ) spec0 c (entryNorm m ρ c)
  hentry c := by
    rw [Pipeline.ownSems0_none]
    have hsplit := Pipeline.arrays_of_unscopedBufs (p := 0) (pcfgs (F := F)) noTables (regionDats m ρ) launch0.win launch0.arr_whole c
      ((regionDats m ρ 0 c).share_full fun _ => rfl) (entryNorm m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m ρ) ((regionDats m ρ 0 c).share_full fun _ => rfl)
      (entryNorm m ρ c) (entryApply m ρ c) ((regionDats m ρ 0 c).arrAt · cfg0.N) (normExit_arr m ρ c) (normExit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from what the first left, left with the result array at what its write-backs leave.
    Two of its windows read one array: the three unscoped buffers become its four arrays by splitting the weights'
    buffer in two, and at the exit the halves are joined; nothing bypasses the region. -/
def applySeg : Pipeline.RegionSeg (pcfgs (F := F)) noTables (regionDats m ρ) () defs₀ noVariants noLevels levelZero 1 where
  win := winFacts₀1
  block_pos := block_pos1
  stage_whole := stage_whole1
  K := PEmpty
  osem k := k.elim
  ho := Pipeline.OwnSemFacts.none _
  hbody c := (applyObligation (entryApply m ρ) c).loose
  hwaits := Pipeline.hwaits_of_owed_zero _ _ _ _ noLevels levelZero 1 fun _ _ => rfl
  pre c := iprop(StableHlo.held (c : Thread nD τ) (Pipeline.ucRefs τ sig) (bufsAfterNorm m ρ c) ∗ riding c)
  post c := iprop(lastState m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := applyArrays_of_bufs (entryApply m ρ) c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_applyArrays (entryApply m ρ) c (fun b => bufsAfterApply m ρ c b)
      (bufsAfterApply_of_ne m ρ c main_arg0 (by decide)) (bufsAfterApply_of_ne m ρ c main_v0 (by decide)) (bufsAfterApply_result m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## The run -/

/-- The program's two segments, in order. -/
abbrev regionSegs : List (Pipeline.Seg (pcfgs (F := F)) noTables (regionDats m ρ) () defs₀ noVariants noLevels levelZero) :=
  [ .region (normSeg m ρ), .region (applySeg m ρ) ]
/-- The program is the run of its two regions. -/
theorem main_is_regions (c : Dev nD) : main (F := F) c = Pipeline.Seg.run (regionSegs m ρ) := (main_chain c).trans (by chain_rfl)

set_option backward.isDefEq.respectTransparency.types false in
/-- From any memory with zero counters every weakly fair execution of the program terminates, nothing faulting, and in
    every final state each unscoped buffer of each core holds its final contents `bufsAfterApply`. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = bufsAfterApply m ρ c b) :=
  Pipeline.θ_run_regions_kit (pcfgs (F := F)) noTables (regionDats m ρ) () cellOf_inj emb₁ defs₀ noVariants noLevels levelZero m ρ main (regionSegs m ρ)
    (fun c Q => by rw [main_is_regions m ρ c])
    (by simp only [regionSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufsAtLaunch m ρ c) ∗ riding c)) (Tₙ := lastState m ρ)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (bufsAtLaunch m ρ c)
        from Pipeline.unscopedBufs_held c (bufsAtLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufsAfterApply m ρ c b)
    (hfin := fun c s' => by
      iintro ⟨⟨Hh, -⟩, HSI⟩
      unfold StableHlo.held
      imodintro
      iapply (pointsTo_read_all (Pipeline.ucRefs τ sig) (fun b => (((c : Thread nD τ)).1, b)) (bufsAfterApply m ρ c) s')
      isplitl [Hh] <;> iassumption)
    (hQ := fun s h => h)

/-! ## What the final contents are -/

/-- The argument is never written: it ends as launched. -/
theorem final_arg0 (c : Dev nD) : bufsAfterApply m ρ c (Proc.devRef .tc main_arg0) = m ((c : Thread nD τ).loc main_arg0) :=
  calc bufsAfterApply m ρ c (Proc.devRef .tc main_arg0)
    _ = bufsAfterNorm m ρ c (Proc.devRef .tc main_arg0) := bufsAfterApply_of_ne m ρ c main_arg0 (by decide)
    _ = bufsAtLaunch m ρ c (Proc.devRef .tc main_arg0) :=
        (bufsAfterNorm_arr m ρ c 0).trans (((normDat (entryNorm m ρ) c).arrAt_in 0 rfl _).trans (normDat_A (entryNorm m ρ) c 0))
    _ = m ((c : Thread nD τ).loc main_arg0) := rfl

/-- The second region finds the argument as launched and the weights at what the first region's write-backs left. -/
theorem entryApply_arg0 (c : Dev nD) : entryApply m ρ c main_arg0 = m ((c : Thread nD τ).loc main_arg0) :=
  ((bufsAfterNorm_arr m ρ c 0).trans (((normDat (entryNorm m ρ) c).arrAt_in 0 rfl _).trans (normDat_A (entryNorm m ρ) c 0))).trans rfl
theorem entryApply_weights (c : Dev nD) : entryApply m ρ c main_v0 = (normDat (entryNorm m ρ) c).arrAt 1 cfg0.N :=
  bufsAfterNorm_arr m ρ c 1

/-- THE FRAME: the program runs to the end and its argument ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_unscoped main_arg0 (by decide))).trans (final_arg0 m ρ c)) (run_bufs m ρ)

/-- The run with the result named: the result buffer ends at what the second region's write-backs leave, the argument as
    launched. -/
theorem run_result : θ_run defs (onTc (τ := τ) (main (F := F))) ⟨m, fun _ => 0, ρ⟩ (fun r => ∀ c : Dev nD,
      r.2.mem ((c.tc : Thread nD τ).loc main_v1) = (applyDat (entryApply m ρ) c).arrAt 3 cfg1.N
      ∧ r.2.mem ((c.tc : Thread nD τ).loc main_arg0) = m ((c.tc : Thread nD τ).loc main_arg0)) :=
  (θ_run defs _ _).mono (fun _ h c => ⟨(h c _ (mem_unscoped main_v1 (by decide))).trans (bufsAfterApply_result m ρ c),
    (h c _ (mem_unscoped main_arg0 (by decide))).trans (final_arg0 m ρ c)⟩) (run_bufs m ρ)

end Run

end Cert.Kernel.Hand

end
-- ==== Proof.NormRegionI.lean ====
/-
  The first kernel region: the weights. Its grid has 16 × 4 points; at point (b, ct) the pipeline stages the
  2049 × 512 block of batch `b`, columns 512·ct … 512·ct + 511, of the argument, and the body writes the
  1 × 512 block of weights of those columns: the logistic function of the block's row 0 minus the column sums
  of the absolute values of its rows 1 … 2048.

  Everything here is stated at a parameter `V`, the contents of the core's buffers when the region is entered,
  and at any float instance. The body reads its input block through two rectangles (row 0; rows 1 … 2048),
  also reads the output buffer's previous contents, which it never uses, and overwrites the whole output buffer
  with one store: so what it leaves is a function of the input block alone.
-/
import proofs.«164435_j2723009265989_2_alg».proof.Proof.Gen.KernelIdeal.Launch
import proofs.«164435_j2723009265989_2_alg».proof.Proof.Gen.KernelIdeal.Skeleton
import proofs.«164435_j2723009265989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section NormRegion

variable (V : (c : Dev nD) → (b : Ref sig .tc) → Buf (Elt F) ((c : Thread nD τ).loc b))

/-- The block of window `w` at grid point `t`, read off the window's array as the region finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body
    leaves the block where it found it. -/
theorem normIn_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

/-- Row 0 of the input block, rows 1 … 2048 of it, and the whole output block. -/
abbrev normPadRect : Rect S1x2049x512 := Rect.unit (s := S1x2049x512) ![0, 0, 0] S1x1x512.size inb_S1x2049x512_S1x1x512_0_0_0
abbrev normSigRect : Rect S1x2049x512 := Rect.unit (s := S1x2049x512) ![0, 1, 0] S1x2048x512.size inb_S1x2049x512_S1x2048x512_0_1_0
abbrev normOutRect : Rect S1x1x512 := Rect.unit (s := S1x1x512) ![0, 0, 0] S1x1x512.size inb_S1x1x512_S1x1x512_0_0_0

/-- What the body leaves in the output buffer, from the input block: its one store. -/
def normOut (x0 : Vec F S1x2049x512 .f32) : Vec F S1x1x512 .f32 :=
  View.canon [⟨normOutRect, k0_pay1 (View.ld x0 normPadRect) (View.ld x0 normSigRect)⟩]

/-- The store covers the output buffer. -/
theorem normOut_cover (p0 : Vec F S1x1x512 .f32) (y : S1x1x512.Idx) :
    ∃ pc ∈ ([⟨normOutRect, p0⟩] : List (View.Piece (Elt F) S1x1x512 .f32)), y ∈ pc.1.set :=
  View.cover_of_tiled [⟨normOutRect, p0⟩] S1x1x512.size (by rfl) y

set_option maxHeartbeats 1000000 in
/-- The body on whole staging buffers, the input's reading `x0` and the output's holding anything: it ends with the
    input's as it was and the output's at `normOut x0`. -/
theorem normKernel_run (c : Dev nD) (E : Set ℕ) (i : grid0.Coords) (arg2 : Memref sig .tc .vmem S1x2049x512 .f32) (harg2 : arg2.IsWhole)
    (arg3 : Memref sig .tc .vmem S1x1x512 .f32) (harg3 : arg3.IsWhole)
    (x0 : Vec F S1x2049x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (normOut x0)) -∗ K ⟨⟩))
      ⊢ wp frame (wpE (defs₀ (F := F)) Variants.none c none) E (cc0__norm_kernel i arg2 harg2 arg3 harg3) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normOut_cover _)

/-- The proof data of the first region on core `c`: the arrays as found; after the body the input's buffer at its
    block and the output's at `normOut` of that block; the invariant is the scoped buffers the region does not
    stage and the generator register, untouched; nothing owed; full shares. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normOut (normBlk V c 0 t)
  Φ _ := Pipeline.ΦA spec0 c
  q _ := fullShare
  owed _ := 0

theorem normDat_A (c : Dev nD) (w : Fin cfg0.W) : (normDat V c).A w = V c (Pipeline.arrRef spec0 w) := by
  dsimp only [normDat]
theorem normDat_after0 (c : Dev nD) (t : Fin cfg0.N) : (normDat V c).after 0 t = normBlk V c 0 t := by dsimp only [normDat]
theorem normDat_after1 (c : Dev nD) (t : Fin cfg0.N) : (normDat V c).after 1 t = normOut (normBlk V c 0 t) := by dsimp only [normDat]
theorem normDat_before0 (c : Dev nD) (t : Fin cfg0.N) (d) : (normDat V c).before 0 t d = normBlk V c 0 t :=
  normIn_of V (normDat V c) (normDat_A V c 0) (normDat_after0 V c) t d

/-- What the body is called with at point `t`, the windows one by one, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t))

theorem normBody_run (c : Dev nD) (t : Fin cfg0.N) :
    normPre V c t ⊢ wp frame (wpE (defs₀ (F := F)) Variants.none c none) Set.univ (bodyAt0 t) (fun _ => normPost V c t) := by
  unfold normPre normPost bodyAt0
  simp only [normDat_before0]
  rw [show (normDat V c).Φ t.succ = (normDat V c).Φ t.castSucc from rfl,
    show (normDat V c).owesAt () t.succ = (normDat V c).owesAt () t.castSucc from rfl,
    normDat_after0, normDat_after1]
  iintro ⟨HΦ, Ho, ⟨%d0, H0⟩, ⟨%d1, H1⟩⟩
  iapply (normKernel_run c Set.univ _ _ _ _ _ (normBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem normObligation (c : Dev nD) : BodyObligation (normDat (F := F) V c) (defs₀ (F := F)) Variants.none () Set.univ := fun t => by
  rw [bigSep_W0, bigSep_W0]
  exact normBody_run V c t

end NormRegion

end Cert.KernelIdeal.Hand

end
-- ==== Proof.ApplyRegionI.lean ====
/-
  The second kernel region: the gating. Its grid has 16 × 4 points; at point (b, ct) the pipeline stages the
  2049 × 512 block of batch `b`, columns 512·ct … 512·ct + 511, of the argument, the 1 × 512 block of the
  weights of those columns, and the whole 1 × 2048 weight row of batch `b` (which changes only with `b`, so
  it is fetched at every fourth point and otherwise found where the previous point left it). The body writes
  the 2049 × 512 result block: row 0 is the column weights times the block's row 0; row 1 + k is
  (1 − weight k of the batch) times the block's row 1 + k.

  The column weights and the weight row are two windows onto ONE array, the first region's result. Both only
  read it, so the proof data gives each window half of the array's share.

  Everything here is stated at a parameter `V`, the contents of the core's buffers when the region is entered,
  and at any float instance. The body reads the result buffer's previous contents before each of its two stores
  and never uses what it read; the two stores cover the result block (row 0; rows 1 … 2048), so what the body
  leaves is a function of the three input blocks alone.
-/
import proofs.«164435_j2723009265989_2_alg».proof.Proof.Gen.KernelIdeal.Launch
import proofs.«164435_j2723009265989_2_alg».proof.Proof.Gen.KernelIdeal.Skeleton
import proofs.«164435_j2723009265989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section ApplyRegion

variable (V : (c : Dev nD) → (b : Ref sig .tc) → Buf (Elt F) ((c : Thread nD τ).loc b))

/-- The block of window `w` at grid point `t`, read off the window's array as the region finds it. -/
def applyBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (an unfetched window's
    block index has not moved), for any proof data over `V` whose body leaves the block where it found it. -/
theorem applyIn0_of {c : Dev nD} (dat : Dat τ (Elt F) Unit ℕ (UR sig nD τ) ℕ cfg1 c) (hA : dat.A 0 = V c (Pipeline.arrRef spec1 0))
    (hafter : ∀ t, dat.after 0 t = applyBlk V c 0 t) (t : Fin cfg1.N) (d) : dat.before 0 t d = applyBlk V c 0 t :=
  (dat.before_in_eq_fetched 0 rfl (fun _ => rfl) (fun _ _ _ => rfl) (fun t => by rw [hafter]; unfold Dat.blockOf applyBlk; rw [hA]; try rfl) t d).trans
    (by unfold Dat.fetched Dat.blockOf applyBlk; rw [hA]; try rfl)
theorem applyIn1_of {c : Dev nD} (dat : Dat τ (Elt F) Unit ℕ (UR sig nD τ) ℕ cfg1 c) (hA : dat.A 1 = V c (Pipeline.arrRef spec1 1))
    (hafter : ∀ t, dat.after 1 t = applyBlk V c 1 t) (t : Fin cfg1.N) (d) : dat.before 1 t d = applyBlk V c 1 t :=
  (dat.before_in_eq_fetched 1 rfl (fun _ => rfl) (fun _ _ _ => rfl) (fun t => by rw [hafter]; unfold Dat.blockOf applyBlk; rw [hA]; try rfl) t d).trans
    (by unfold Dat.fetched Dat.blockOf applyBlk; rw [hA]; try rfl)
theorem applyIn2_of {c : Dev nD} (dat : Dat τ (Elt F) Unit ℕ (UR sig nD τ) ℕ cfg1 c) (hA : dat.A 2 = V c (Pipeline.arrRef spec1 2))
    (hafter : ∀ t, dat.after 2 t = applyBlk V c 2 t) (t : Fin cfg1.N) (d) : dat.before 2 t d = applyBlk V c 2 t :=
  (dat.before_in_eq_fetched 2 rfl (fun _ => rfl) (fun _ _ _ => rfl) (fun t => by rw [hafter]; unfold Dat.blockOf applyBlk; rw [hA]; try rfl) t d).trans
    (by unfold Dat.fetched Dat.blockOf applyBlk; rw [hA]; try rfl)

/-- Row 0 and rows 1 … 2048 of a 2049 × 512 block; the whole column-weight block; the whole weight row. -/
abbrev applyPadRect : Rect S1x2049x512 := Rect.unit (s := S1x2049x512) ![0, 0, 0] S1x1x512.size inb_S1x2049x512_S1x1x512_0_0_0
abbrev applySigRect : Rect S1x2049x512 := Rect.unit (s := S1x2049x512) ![0, 1, 0] S1x2048x512.size inb_S1x2049x512_S1x2048x512_0_1_0
abbrev applyColRect : Rect S1x1x512 := Rect.unit (s := S1x1x512) ![0, 0, 0] S1x1x512.size inb_S1x1x512_S1x1x512_0_0_0
abbrev applyRowRect : Rect S1x1x2048 := Rect.unit (s := S1x1x2048) ![0, 0, 0] S1x1x2048.size inb_S1x1x2048_S1x1x2048_0_0_0

/-- What the body leaves in the result buffer, from the three input blocks: its two stores, the later one first. -/
def applyOut (x0 : Vec F S1x2049x512 .f32) (x1 : Vec F S1x1x512 .f32) (x2 : Vec F S1x1x2048 .f32) : Vec F S1x2049x512 .f32 :=
  View.canon [⟨applySigRect, k1_pay2 (View.ld x0 applySigRect) (View.ld x2 applyRowRect)⟩,
    ⟨applyPadRect, k1_pay1 (View.ld x0 applyPadRect) (View.ld x1 applyColRect)⟩]

/-- The two stores cover the result buffer: an index is in row 0 or in one of the rows 1 … 2048. -/
theorem applyOut_cover (p0 : Vec F S1x2048x512 .f32) (p1 : Vec F S1x1x512 .f32) (y : S1x2049x512.Idx) :
    ∃ pc ∈ ([⟨applySigRect, p0⟩, ⟨applyPadRect, p1⟩] : List (View.Piece (Elt F) S1x2049x512 .f32)), y ∈ pc.1.set := by
  have h0 : (y 0).val < 1 := (y 0).isLt
  have h1 : (y 1).val < 2049 := (y 1).isLt
  have h2 : (y 2).val < 512 := (y 2).isLt
  by_cases h : (y 1).val = 0
  · refine ⟨⟨applyPadRect, p1⟩, List.mem_cons_of_mem _ List.mem_cons_self, ?_⟩
    refine (Rect.mem_set_unit (s := S1x2049x512) (off := ![0, 0, 0]) (size := S1x1x512.size) (inb := inb_S1x2049x512_S1x1x512_0_0_0) (i := y)).mpr fun a => ?_
    match a with
    | ⟨0, _⟩ => exact ⟨Nat.zero_le _, by show (y 0).val < 0 + 1; omega⟩
    | ⟨1, _⟩ => exact ⟨Nat.zero_le _, by show (y 1).val < 0 + 1; omega⟩
    | ⟨2, _⟩ => exact ⟨Nat.zero_le _, by show (y 2).val < 0 + 512; omega⟩
  · refine ⟨⟨applySigRect, p0⟩, List.mem_cons_self, ?_⟩
    refine (Rect.mem_set_unit (s := S1x2049x512) (off := ![0, 1, 0]) (size := S1x2048x512.size) (inb := inb_S1x2049x512_S1x2048x512_0_1_0) (i := y)).mpr fun a => ?_
    match a with
    | ⟨0, _⟩ => exact ⟨Nat.zero_le _, by show (y 0).val < 0 + 1; omega⟩
    | ⟨1, _⟩ => exact ⟨by show 1 ≤ (y 1).val; omega, by show (y 1).val < 1 + 2048; omega⟩
    | ⟨2, _⟩ => exact ⟨Nat.zero_le _, by show (y 2).val < 0 + 512; omega⟩

set_option maxHeartbeats 1000000 in
/-- The body on whole staging buffers, the inputs' reading `x0`, `x1`, `x2` and the result's holding anything: it ends
    with the inputs' as they were and the result's at `applyOut x0 x1 x2`. -/
theorem applyKernel_run (c : Dev nD) (E : Set ℕ) (i : grid1.Coords) (arg2 : Memref sig .tc .vmem S1x2049x512 .f32) (harg2 : arg2.IsWhole)
    (arg3 : Memref sig .tc .vmem S1x1x512 .f32) (harg3 : arg3.IsWhole) (arg4 : Memref sig .tc .vmem S1x1x2048 .f32) (harg4 : arg4.IsWhole)
    (arg5 : Memref sig .tc .vmem S1x2049x512 .f32) (harg5 : arg5.IsWhole)
    (x0 : Vec F S1x2049x512 .f32) (x1 : Vec F S1x1x512 .f32) (x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (applyOut x0 x1 x2)) -∗ K ⟨⟩))
      ⊢ wp frame (wpE (defs₀ (F := F)) Variants.none c none) E (cc1__apply_kernel i arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (applyOut_cover _ _)

/-- The proof data of the second region on core `c`: the arrays as found; after the body each input's buffer at its
    block and the result's at `applyOut` of the three blocks; the invariant is the scoped buffers the region does
    not stage and the generator register, untouched; nothing owed. The argument is held whole; the weights' array
    is read through two windows, each holding one half of it. -/
def applyDat (c : Dev nD) : Dat τ (Elt F) Unit ℕ (UR sig nD τ) ℕ cfg1 c where
  A w := V c (Pipeline.arrRef spec1 w)
  after w t := match w with
    | ⟨0, _⟩ => applyBlk V c 0 t
    | ⟨1, _⟩ => applyBlk V c 1 t
    | ⟨2, _⟩ => applyBlk V c 2 t
    | ⟨3, _⟩ => applyOut (applyBlk V c 0 t) (applyBlk V c 1 t) (applyBlk V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem applyDat_A (c : Dev nD) (w : Fin cfg1.W) : (applyDat V c).A w = V c (Pipeline.arrRef spec1 w) := by
  dsimp only [applyDat]
theorem applyDat_after0 (c : Dev nD) (t : Fin cfg1.N) : (applyDat V c).after 0 t = applyBlk V c 0 t := by dsimp only [applyDat]
theorem applyDat_after1 (c : Dev nD) (t : Fin cfg1.N) : (applyDat V c).after 1 t = applyBlk V c 1 t := by dsimp only [applyDat]
theorem applyDat_after2 (c : Dev nD) (t : Fin cfg1.N) : (applyDat V c).after 2 t = applyBlk V c 2 t := by dsimp only [applyDat]
theorem applyDat_after3 (c : Dev nD) (t : Fin cfg1.N) :
    (applyDat V c).after 3 t = applyOut (applyBlk V c 0 t) (applyBlk V c 1 t) (applyBlk V c 2 t) := by dsimp only [applyDat]
theorem applyDat_before0 (c : Dev nD) (t : Fin cfg1.N) (d) : (applyDat V c).before 0 t d = applyBlk V c 0 t :=
  applyIn0_of V (applyDat V c) (applyDat_A V c 0) (applyDat_after0 V c) t d
theorem applyDat_before1 (c : Dev nD) (t : Fin cfg1.N) (d) : (applyDat V c).before 1 t d = applyBlk V c 1 t :=
  applyIn1_of V (applyDat V c) (applyDat_A V c 1) (applyDat_after1 V c) t d
theorem applyDat_before2 (c : Dev nD) (t : Fin cfg1.N) (d) : (applyDat V c).before 2 t d = applyBlk V c 2 t :=
  applyIn2_of V (applyDat V c) (applyDat_A V c 2) (applyDat_after2 V c) t d

/-- What the body is called with at point `t`, the windows one by one, -/
def applyPre (c : Dev nD) (t : Fin cfg1.N) : sProp 𝕄 :=
  iprop((applyDat V c).Φ t.castSucc ∗ (applyDat V c).owesAt () t.castSucc
    ∗ (∃ d, owns (c : Thread nD τ) (st1_0 t) fullShare ((applyDat V c).before 0 t d))
    ∗ (∃ d, owns (c : Thread nD τ) (st1_1 t) fullShare ((applyDat V c).before 1 t d))
    ∗ (∃ d, owns (c : Thread nD τ) (st1_2 t) fullShare ((applyDat V c).before 2 t d))
    ∗ (∃ d, owns (c : Thread nD τ) (st1_3 t) fullShare ((applyDat V c).before 3 t d)))

/-- and what it returns. -/
def applyPost (c : Dev nD) (t : Fin cfg1.N) : sProp 𝕄 :=
  iprop((applyDat V c).Φ t.succ ∗ (applyDat V c).owesAt () t.succ
    ∗ owns (c : Thread nD τ) (st1_0 t) fullShare ((applyDat V c).after 0 t)
    ∗ owns (c : Thread nD τ) (st1_1 t) fullShare ((applyDat V c).after 1 t)
    ∗ owns (c : Thread nD τ) (st1_2 t) fullShare ((applyDat V c).after 2 t)
    ∗ owns (c : Thread nD τ) (st1_3 t) fullShare ((applyDat V c).after 3 t))

theorem applyBody_run (c : Dev nD) (t : Fin cfg1.N) :
    applyPre V c t ⊢ wp frame (wpE (defs₀ (F := F)) Variants.none c none) Set.univ (bodyAt1 t) (fun _ => applyPost V c t) := by
  unfold applyPre applyPost bodyAt1
  simp only [applyDat_before0, applyDat_before1, applyDat_before2]
  rw [show (applyDat V c).Φ t.succ = (applyDat V c).Φ t.castSucc from rfl,
    show (applyDat V c).owesAt () t.succ = (applyDat V c).owesAt () t.castSucc from rfl,
    applyDat_after0, applyDat_after1, applyDat_after2, applyDat_after3]
  iintro ⟨HΦ, Ho, ⟨%d0, H0⟩, ⟨%d1, H1⟩, ⟨%d2, H2⟩, ⟨%d3, H3⟩⟩
  iapply (applyKernel_run c Set.univ _ _ _ _ _ _ _ _ _ (applyBlk V c 0 t) (applyBlk V c 1 t) (applyBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second region, at every point. -/
theorem applyObligation (c : Dev nD) : BodyObligation (applyDat (F := F) V c) (defs₀ (F := F)) Variants.none () Set.univ := fun t => by
  rw [bigSep_W1, bigSep_W1]
  exact applyBody_run V c t

end ApplyRegion

end Cert.KernelIdeal.Hand

end
-- ==== Proof.RunI.lean ====
/-
  The run of the whole program: two kernel regions, one after the other, with nothing between them.

  Between regions a core holds its unscoped buffers — the argument, the weights and the result — whole, at
  contents this file names: at launch the memory the program is started from; after the first region the same
  with the weights array at what that region's write-backs left; after the second region the same again with
  the result array at what its write-backs left. The first region's arrays are two distinct buffers. The second
  region reads the weights array through two windows: at its entry that buffer is split into two halves, one per
  window, and at its exit the halves, both still holding what they held, are joined again.

  The conclusion names every unscoped buffer's final contents, so both the frame claim (the argument ends as
  launched) and the value of the result are read off it.
-/
import proofs.«164435_j2723009265989_2_alg».proof.Proof.NormRegionI
import proofs.«164435_j2723009265989_2_alg».proof.Proof.ApplyRegionI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffers' contents at the three boundaries -/

/-- Core `c`'s buffers at launch. -/
abbrev bufsAtLaunch : Dev nD → Valuation τ sig (Elt F) := fun c b => (s₀ m ρ).mem ((c : Dev nD), b)
/-- The same read at the core's references: what the first region is entered from. -/
abbrev entryNorm : (c : Dev nD) → (b : Ref sig .tc) → Buf (Elt F) ((c : Thread nD τ).loc b) := fun c b => bufsAtLaunch m ρ c b

/-- After the first region: its arrays at what the pipeline leaves, every other buffer as entered. -/
def bufsAfterNorm (c : Dev nD) : Valuation τ sig (Elt F) :=
  Pipeline.withArrays spec0 c (bufsAtLaunch m ρ c) fun w => (normDat (entryNorm m ρ) c).arrAt w cfg0.N
theorem bufsAfterNorm_arr (c : Dev nD) (w : Fin cfg0.W) :
    bufsAfterNorm m ρ c (Proc.devRef .tc (Pipeline.arrRef spec0 w)) = (normDat (entryNorm m ρ) c).arrAt w cfg0.N := by
  unfold bufsAfterNorm; exact Pipeline.withArrays_arr spec0 launch0.win.arr_inj c _ _ w
theorem bufsAfterNorm_of_ne (c : Dev nD) (b : Ref sig .tc) (hb : ∀ w, Pipeline.arrRef spec0 w ≠ b) :
    bufsAfterNorm m ρ c (Proc.devRef .tc b) = bufsAtLaunch m ρ c (Proc.devRef .tc b) := by
  unfold bufsAfterNorm; exact Pipeline.withArrays_of_ne spec0 c _ _ b hb
/-- The same read at the core's references: what the second region is entered from. -/
abbrev entryApply : (c : Dev nD) → (b : Ref sig .tc) → Buf (Elt F) ((c : Thread nD τ).loc b) := fun c b => bufsAfterNorm m ρ c b
theorem normExit_arr (c : Dev nD) (w : Fin cfg0.W) :
    (normDat (entryNorm m ρ) c).arrAt w cfg0.N = entryApply m ρ c (Pipeline.arrRef spec0 w) :=
  (bufsAfterNorm_arr m ρ c w).symm
theorem normExit_rest (c : Dev nD) : ∀ b, b ∉ Finset.univ.image (Pipeline.arrRef spec0) → entryApply m ρ c b = entryNorm m ρ c b :=
  fun b hb => bufsAfterNorm_of_ne m ρ c b fun w e => hb (Finset.mem_image.mpr ⟨w, Finset.mem_univ _, e⟩)

/-- After the second region: the result array at what the pipeline leaves, every other buffer as entered. -/
def bufsAfterApply (c : Dev nD) : Valuation τ sig (Elt F) :=
  Function.update (bufsAfterNorm m ρ c) (Proc.devRef .tc main_v1)
    ((applyDat (entryApply m ρ) c).arrAt 3 cfg1.N : Buf (Elt F) ((c : Thread nD τ).loc main_v1))
theorem bufsAfterApply_result (c : Dev nD) :
    bufsAfterApply m ρ c (Proc.devRef .tc main_v1) = (applyDat (entryApply m ρ) c).arrAt 3 cfg1.N := by
  unfold bufsAfterApply; exact Function.update_self ..
theorem bufsAfterApply_of_ne (c : Dev nD) (b : Ref sig .tc) (hb : b ≠ main_v1) :
    bufsAfterApply m ρ c (Proc.devRef .tc b) = bufsAfterNorm m ρ c (Proc.devRef .tc b) := by
  unfold bufsAfterApply
  exact Function.update_of_ne (StableHlo.devRef_ne_of_ne hb) _ _

/-! ## The second region's arrays out of the unscoped buffers, and back -/

section Shares

variable (V : (c : Dev nD) → (b : Ref sig .tc) → Buf (Elt F) ((c : Thread nD τ).loc b))

/-- The core's unscoped buffers are the argument, the weights and the result: a conjunction over them, one by one. -/
theorem bigSep_unscoped {M : Type} [URA M] (Φ : Ref sig .tc → sProp M) :
    bigSep (Finset.univ.filter fun b : Ref sig .tc => ¬ b.isScoped) Φ = iprop(Φ main_arg0 ∗ Φ main_v0 ∗ Φ main_v1) :=
  bigSep_eq_bigSepL_of_eq [main_arg0, main_v0, main_v1] (by decide) (by decide) Φ

/-- The shares the second region's proof data holds its four arrays at. -/
theorem applyShare0 (c : Dev nD) : (applyDat V c).share 0 = fullShare := rfl
theorem applyShare1 (c : Dev nD) : (applyDat V c).share 1 = fullShare.left := rfl
theorem applyShare2 (c : Dev nD) : (applyDat V c).share 2 = fullShare.right := rfl
theorem applyShare3 (c : Dev nD) : (applyDat V c).share 3 = fullShare := rfl

/-- ENTRY: the three unscoped buffers, whole, make the second region's four arrays at the proof data's entry
    contents: the argument and the result each one window's, the weights split into the two halves its two
    windows hold. -/
theorem applyArrays_of_bufs (c : Dev nD) :
    (unscopedBufs (Ix := Unit) (Name := ℕ) (U := UR sig nD τ) (Lvl := ℕ) c (V c) : sProp 𝕄)
      ⊢ (applyDat V c).arrays ((applyDat V c).arrAt · 0) := by
  unfold unscopedBufs Pipeline.Dat.arrays
  rw [bigSep_W1, bigSep_unscoped, (arr_whole1 0).set_eq_univ, (arr_whole1 1).set_eq_univ,
    (arr_whole1 3).set_eq_univ, applyShare0, applyShare1, applyShare2, applyShare3]
  iintro ⟨H0, Hw, H1⟩
  ihave Hs := (pointsTo_share (PosShare.mem_left_op_right fullShare)).1 $$ Hw
  icases Hs with ⟨Hl, Hr⟩
  isplitl [H0]; · iexact H0
  isplitl [Hl]; · iexact Hl
  isplitl [Hr]; · iexact Hr
  iexact H1

/-- EXIT: the four arrays after the last point — the three inputs' as entered, the result's at what the write-backs
    left — make the three unscoped buffers whole again, at any contents `V'` that has the result there and agrees
    with the entry contents elsewhere: the two halves of the weights, holding the same contents, are joined. -/
theorem bufs_of_applyArrays (c : Dev nD) (V' : (b : Ref sig .tc) → Buf (Elt F) ((c : Thread nD τ).loc b))
    (h0 : V' main_arg0 = V c main_arg0) (hw : V' main_v0 = V c main_v0) (h1 : V' main_v1 = (applyDat V c).arrAt 3 cfg1.N) :
    (applyDat V c).arrays ((applyDat V c).arrAt · cfg1.N)
      ⊢ (unscopedBufs (Ix := Unit) (Name := ℕ) (U := UR sig nD τ) (Lvl := ℕ) c V' : sProp 𝕄) := by
  unfold unscopedBufs Pipeline.Dat.arrays
  rw [bigSep_W1, bigSep_unscoped, (arr_whole1 0).set_eq_univ, (arr_whole1 1).set_eq_univ,
    (arr_whole1 3).set_eq_univ, applyShare0, applyShare1, applyShare2, applyShare3, h0, hw, h1]
  beta_reduce
  rw [(applyDat V c).arrAt_in 0 rfl, (applyDat V c).arrAt_in 1 rfl, (applyDat V c).arrAt_in 2 rfl]
  iintro ⟨H0, Hl, Hr, H1⟩
  ihave Hw := (pointsTo_share (PosShare.mem_left_op_right fullShare)).2 $$ [Hl Hr]
  · isplitl [Hl]; · iexact Hl
    iexact Hr
  isplitl [H0]; · iexact H0
  isplitl [Hw]; · iexact Hw
  iexact H1

end Shares

/-! ## The proof data of both regions, and what rides beside the buffers -/

/-- Neither region has a prefetched table. -/
abbrev noTables : (p : Fin 2) → (pcfgs (F := F) p).Adm := fun p => (cfgs p).toPCfg_adm
/-- Each region's proof data at the contents it is entered from. -/
def regionDats : (p : Fin 2) → (c : Dev nD) → Dat τ (Elt F) Unit ℕ (UR sig nD τ) ℕ (Pipeline.pin (pcfgs (F := F)) noTables p) c
  | ⟨0, _⟩ => fun c => normDat (entryNorm m ρ) c
  | ⟨1, _⟩ => fun c => applyDat (entryApply m ρ) c
abbrev noVariants : Variants := Variants.none
/-- No core owes another anything: no level is assigned. -/
abbrev noLevels : GSem nD τ sig → Finset Unit := fun _ => ∅
abbrev levelZero : GSem nD τ sig → Unit → ℕ := fun _ _ => 0
/-- Beside the buffers, through both regions: the core's generator register at some state, and nothing owed. -/
abbrev riding (c : Dev nD) : sProp 𝕄 := iprop((∃ r, prngReg c r) ∗ ∃ W, owes (c : Thread nD τ) (0 : CellTallies nD τ sig Unit) W)
/-- The last state, without the debts: every unscoped buffer at its final contents, the generator register at some state. -/
abbrev lastState (c : Dev nD) : sProp 𝕄 :=
  iprop(StableHlo.held (c : Thread nD τ) (Pipeline.ucRefs τ sig) (bufsAfterApply m ρ c) ∗ ∃ r, prngReg c r)
/-- An unscoped reference of the core is among those the state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments of the run -/

set_option backward.isDefEq.respectTransparency.types false in
/-- The first region: entered from the launch contents, left with the weights array at what its write-backs leave. Its
    two arrays are distinct buffers, split out of the unscoped buffers and put back; the generator register goes
    into the region's invariant and comes back; nothing is owed; the kernel has no semaphore of its own. -/
def normSeg : Pipeline.RegionSeg (pcfgs (F := F)) noTables (regionDats m ρ) () defs₀ noVariants noLevels levelZero 0 where
  win := launch0.win.to₀
  block_pos := launch0.block_pos
  stage_whole := launch0.stage_whole
  K := PEmpty
  osem k := k.elim
  ho := Pipeline.OwnSemFacts.none _
  hbody c := (normObligation (entryNorm m ρ) c).loose
  hwaits := Pipeline.hwaits_of_owed_zero _ _ _ _ noLevels levelZero 0 fun _ _ => rfl
  pre c := iprop(StableHlo.held (c : Thread nD τ) (Pipeline.ucRefs τ sig) (bufsAtLaunch m ρ c) ∗ riding c)
  post c := iprop(StableHlo.held (c : Thread nD τ) (Pipeline.ucRefs τ sig) (bufsAfterNorm m ρ c) ∗ riding c)
  X c := iprop(∃ r, prngReg c r)
  Y c := iprop(∃ r, prngReg c r)
  Z c := Pipeline.unscopedRest (Ix := Unit) (Name := ℕ) (U := UR sig nD τ) (Lvl := ℕ) spec0 c (entryNorm m ρ c)
  hentry c := by
    rw [Pipeline.ownSems0_none]
    have hsplit := Pipeline.arrays_of_unscopedBufs (p := 0) (pcfgs (F := F)) noTables (regionDats m ρ) launch0.win launch0.arr_whole c
      ((regionDats m ρ 0 c).share_full fun _ => rfl) (entryNorm m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m ρ) ((regionDats m ρ 0 c).share_full fun _ => rfl)
      (entryNorm m ρ c) (entryApply m ρ c) ((regionDats m ρ 0 c).arrAt · cfg0.N) (normExit_arr m ρ c) (normExit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from what the first left, left with the result array at what its write-backs leave.
    Two of its windows read one array: the three unscoped buffers become its four arrays by splitting the weights'
    buffer in two, and at the exit the halves are joined; nothing bypasses the region. -/
def applySeg : Pipeline.RegionSeg (pcfgs (F := F)) noTables (regionDats m ρ) () defs₀ noVariants noLevels levelZero 1 where
  win := winFacts₀1
  block_pos := block_pos1
  stage_whole := stage_whole1
  K := PEmpty
  osem k := k.elim
  ho := Pipeline.OwnSemFacts.none _
  hbody c := (applyObligation (entryApply m ρ) c).loose
  hwaits := Pipeline.hwaits_of_owed_zero _ _ _ _ noLevels levelZero 1 fun _ _ => rfl
  pre c := iprop(StableHlo.held (c : Thread nD τ) (Pipeline.ucRefs τ sig) (bufsAfterNorm m ρ c) ∗ riding c)
  post c := iprop(lastState m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := applyArrays_of_bufs (entryApply m ρ) c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (regionDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_applyArrays (entryApply m ρ) c (fun b => bufsAfterApply m ρ c b)
      (bufsAfterApply_of_ne m ρ c main_arg0 (by decide)) (bufsAfterApply_of_ne m ρ c main_v0 (by decide)) (bufsAfterApply_result m ρ c)
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## The run -/

/-- The program's two segments, in order. -/
abbrev regionSegs : List (Pipeline.Seg (pcfgs (F := F)) noTables (regionDats m ρ) () defs₀ noVariants noLevels levelZero) :=
  [ .region (normSeg m ρ), .region (applySeg m ρ) ]
/-- The program is the run of its two regions. -/
theorem main_is_regions (c : Dev nD) : main (F := F) c = Pipeline.Seg.run (regionSegs m ρ) := (main_chain c).trans (by chain_rfl)

set_option backward.isDefEq.respectTransparency.types false in
/-- From any memory with zero counters every weakly fair execution of the program terminates, nothing faulting, and in
    every final state each unscoped buffer of each core holds its final contents `bufsAfterApply`. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = bufsAfterApply m ρ c b) :=
  Pipeline.θ_run_regions_kit (pcfgs (F := F)) noTables (regionDats m ρ) () cellOf_inj emb₁ defs₀ noVariants noLevels levelZero m ρ main (regionSegs m ρ)
    (fun c Q => by rw [main_is_regions m ρ c])
    (by simp only [regionSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufsAtLaunch m ρ c) ∗ riding c)) (Tₙ := lastState m ρ)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (bufsAtLaunch m ρ c)
        from Pipeline.unscopedBufs_held c (bufsAtLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufsAfterApply m ρ c b)
    (hfin := fun c s' => by
      iintro ⟨⟨Hh, -⟩, HSI⟩
      unfold StableHlo.held
      imodintro
      iapply (pointsTo_read_all (Pipeline.ucRefs τ sig) (fun b => (((c : Thread nD τ)).1, b)) (bufsAfterApply m ρ c) s')
      isplitl [Hh] <;> iassumption)
    (hQ := fun s h => h)

/-! ## What the final contents are -/

/-- The argument is never written: it ends as launched. -/
theorem final_arg0 (c : Dev nD) : bufsAfterApply m ρ c (Proc.devRef .tc main_arg0) = m ((c : Thread nD τ).loc main_arg0) :=
  calc bufsAfterApply m ρ c (Proc.devRef .tc main_arg0)
    _ = bufsAfterNorm m ρ c (Proc.devRef .tc main_arg0) := bufsAfterApply_of_ne m ρ c main_arg0 (by decide)
    _ = bufsAtLaunch m ρ c (Proc.devRef .tc main_arg0) :=
        (bufsAfterNorm_arr m ρ c 0).trans (((normDat (entryNorm m ρ) c).arrAt_in 0 rfl _).trans (normDat_A (entryNorm m ρ) c 0))
    _ = m ((c : Thread nD τ).loc main_arg0) := rfl

/-- The second region finds the argument as launched and the weights at what the first region's write-backs left. -/
theorem entryApply_arg0 (c : Dev nD) : entryApply m ρ c main_arg0 = m ((c : Thread nD τ).loc main_arg0) :=
  ((bufsAfterNorm_arr m ρ c 0).trans (((normDat (entryNorm m ρ) c).arrAt_in 0 rfl _).trans (normDat_A (entryNorm m ρ) c 0))).trans rfl
theorem entryApply_weights (c : Dev nD) : entryApply m ρ c main_v0 = (normDat (entryNorm m ρ) c).arrAt 1 cfg0.N :=
  bufsAfterNorm_arr m ρ c 1

/-- THE FRAME: the program runs to the end and its argument ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_unscoped main_arg0 (by decide))).trans (final_arg0 m ρ c)) (run_bufs m ρ)

/-- The run with the result named: the result buffer ends at what the second region's write-backs leave, the argument as
    launched. -/
theorem run_result : θ_run defs (onTc (τ := τ) (main (F := F))) ⟨m, fun _ => 0, ρ⟩ (fun r => ∀ c : Dev nD,
      r.2.mem ((c.tc : Thread nD τ).loc main_v1) = (applyDat (entryApply m ρ) c).arrAt 3 cfg1.N
      ∧ r.2.mem ((c.tc : Thread nD τ).loc main_arg0) = m ((c.tc : Thread nD τ).loc main_arg0)) :=
  (θ_run defs _ _).mono (fun _ h c => ⟨(h c _ (mem_unscoped main_v1 (by decide))).trans (bufsAfterApply_result m ρ c),
    (h c _ (mem_unscoped main_arg0 (by decide))).trans (final_arg0 m ρ c)⟩) (run_bufs m ρ)

end Run

end Cert.KernelIdeal.Hand

end
-- ==== Proof.Spec.lean ====
/-
  The function both programs compute, stated once over extended reals and over the literal shape of the
  argument, a 16 × 2049 × 2048 array `x`: row 0 of every batch is a padding row, rows 1 … 2048 the signal.

  For batch `b` and column `t` the weight is the two-way softmax of the padding entry against the L1 norm of
  the signal's column, that is the logistic function of their difference:

      colNorm x b t = ∑ k < 2048, |x(b, 1 + k, t)|
      gate x b t    = logistic (x(b, 0, t) - colNorm x b t)

  The result keeps the padding row scaled by the weight of its own column and scales signal row `k` by the
  complement of the weight of COLUMN `k` (the signal is square, and the weight vector of a batch is reused
  along the rows):

      gated x (b, 0, t)     = gate x b t * x(b, 0, t)
      gated x (b, 1 + k, t) = (1 - gate x b k) * x(b, 1 + k, t)

  No entry is assumed finite: the absolute value is `max v (-v)`, the sum is the extended reals' own, and the
  two programs apply the same operations in the same order to each entry, so nothing here needs a law that
  fails at an infinity.
-/
import Idealize.ShloMosaic.PureOps.Ideal
import Idealize.ShloMosaic.PureOps.Ideal.Laws
import Idealize.ShloMosaic.Lib.ValueIdx

noncomputable section

namespace Cert.GateSpec

open Idealize.ShloMosaic Idealize.ShloMosaic.ValueIdx

/-- The argument's and the result's shape. -/
abbrev SX : Shape := ⟨3, ![16, 2049, 2048]⟩

/-- Signal row `k` (counted from 0) is row `1 + k` of the array. -/
def sigRow (k : Fin 2048) : Fin 2049 := ⟨1 + k.val, by have := k.isLt; omega⟩

/-- The padding row. -/
def padRow : Fin 2049 := ⟨0, by decide⟩

/-- The L1 norm of column `t` of batch `b`'s signal. -/
def colNorm (x : SX.Idx → EReal) (b : Fin 16) (t : Fin 2048) : EReal :=
  ∑ k : Fin 2048, max (x (ix3 b (sigRow k) t)) (-(x (ix3 b (sigRow k) t)))

/-- The weight of column `t` of batch `b`: the logistic function of padding entry minus column norm. -/
def gate (x : SX.Idx → EReal) (b : Fin 16) (t : Fin 2048) : EReal :=
  Ideal.logistic (x (ix3 b padRow t) - colNorm x b t)

/-- The whole result: the padding row times its column's weight, signal row `k` times one minus the weight
    of column `k`. -/
def gated (x : SX.Idx → EReal) : SX.Idx → EReal := fun i =>
  if h : (i 1).val = 0 then gate x (i 0) (i 2) * x i
  else (1 - gate x (i 0) ⟨(i 1).val - 1, by have := (i 1).isLt; change (i 1).val < 2049 at this; omega⟩) * x i

theorem gated_pad (x : SX.Idx → EReal) (b : Fin 16) (t : Fin 2048) :
    gated x (ix3 b padRow t) = gate x b t * x (ix3 b padRow t) := by
  unfold gated
  rw [dif_pos (show ((ix3 b padRow t : SX.Idx) 1).val = 0 from rfl)]

theorem gated_sig (x : SX.Idx → EReal) (b : Fin 16) (k : Fin 2048) (t : Fin 2048) :
    gated x (ix3 b (sigRow k) t) = (1 - gate x b k) * x (ix3 b (sigRow k) t) := by
  unfold gated
  have hne : ¬ ((ix3 b (sigRow k) t : SX.Idx) 1).val = 0 := by
    show ¬ (1 + k.val = 0); omega
  rw [dif_neg hne]
  have hk : (⟨((ix3 b (sigRow k) t : SX.Idx) 1).val - 1, by have := k.isLt; show 1 + k.val - 1 < 2048; omega⟩ : Fin 2048) = k :=
    Fin.ext (by show 1 + k.val - 1 = k.val; omega)
  have h0 : ((ix3 b (sigRow k) t : SX.Idx) 0) = b := rfl
  simp only [hk, h0]

/-- The f32 word of `1.0` denotes the number one. -/
theorem one_word : Ideal.ofBits .f32 0x3F800000#32 = 1 := by
  simp [Ideal.ofBits, Ideal.ieee, -EReal.coe_mul] <;> norm_num

end Cert.GateSpec

end
-- ==== Proof.Payloads.lean ====
/-
  The three values the kernel bodies store, read at one index over the extended reals.

  The first body stores, at column j of its 1 × 1 × 512 block, the logistic function of the padding entry
  minus the sum over the 2048 signal rows of the absolute values in that column.  The second body stores the
  padding row times the weight row, entry by entry, and the signal block with row k scaled by one minus
  entry k of the full weight row.

  Every step is a reading of one operation at an index: a recast between shapes keeps the row-major position,
  a column spread over many columns reads its one column, a sum over the leading axis is the sum over that
  axis's coordinates, and the arithmetic is the extended reals' own, entry by entry.
-/
import proofs.«164435_j2723009265989_2_alg».proof.Proof.Gen.KernelIdeal.Skeleton
import proofs.«164435_j2723009265989_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## Recasts and the column spread, read at an index given by coordinates -/

section Layout
variable {α : Type}

/-- A 1 × 1 × a array recast to a vector of length a reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A vector of length a recast to 1 × 1 × a reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- A vector of length a recast to an a × 1 column reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An a × 1 column spread over b columns reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sum over the leading axis of a 2048 × 512 array -/

/-- The sum over axis 0, read at column j, is the sum over the rows k of the entry (k, j).  The hypothesis on
    the initial word is typed as the literal equation the body carries. -/
theorem colsum_apply (src : FVec Ideal S2048x512 .f32) (h : S2048x512.Reduces [0] S512)
    (hφ : FKind.Formats .f32) (hacc : (0x00000000#32 : BitVec 32) = 0x00000000#32) (j : Fin 512) :
    multiReduction (F := Ideal) .add [0] S512 src 0x00000000#32 h hφ hacc (ix1 j)
      = ∑ k : Fin 2048, src (ix2 k j) := by
  refine (Ideal.multiReduction_add_single src 0x00000000#32 h hφ hacc (ix1 j)).trans ?_
  refine Finset.sum_congr rfl fun k _ => congrArg src ?_
  funext a
  match a with
  | ⟨0, _⟩ => exact Fin.ext rfl
  | ⟨1, _⟩ => exact Fin.ext rfl

/-! ## The three payloads -/

/-- The first body's stored value at column j: the logistic function of the padding entry minus the column's
    sum of absolute values. -/
theorem norm_pay (v0 : Vec Ideal S1x1x512 .f32) (v2 : Vec Ideal S1x2048x512 .f32) (j : Fin 512) :
    k0_pay1 (F := Ideal) v0 v2 (ix3 (0 : Fin 1) (0 : Fin 1) j)
      = Ideal.logistic (v0 (ix3 (0 : Fin 1) (0 : Fin 1) j)
          - ∑ k : Fin 2048, max (v2 (ix3 (0 : Fin 1) k j)) (-(v2 (ix3 (0 : Fin 1) k j)))) := by
  unfold k0_pay1
  refine (shapeCast_a_11a_apply _ _ (0 : Fin 1) (0 : Fin 1) j).trans ?_
  have h1 : shapeCast S512 v0 shapeCasts_S1x1x512_S512 (ix1 j) = v0 (ix3 (0 : Fin 1) (0 : Fin 1) j) :=
    shapeCast_11a_a_apply v0 _ j
  have h2 : multiReduction (F := Ideal) .add [0] S512
        (absf (shapeCast S2048x512 v2 shapeCasts_S1x2048x512_S2048x512)) 0x00000000#32
        reduces_S2048x512_S512 (.inl rfl) rfl (ix1 j)
      = ∑ k : Fin 2048, max (v2 (ix3 (0 : Fin 1) k j)) (-(v2 (ix3 (0 : Fin 1) k j))) := by
    refine (colsum_apply _ _ _ _ j).trans ?_
    refine Finset.sum_congr rfl fun k _ => ?_
    show max (shapeCast S2048x512 v2 shapeCasts_S1x2048x512_S2048x512 (ix2 k j))
        (-(shapeCast S2048x512 v2 shapeCasts_S1x2048x512_S2048x512 (ix2 k j))) = _
    rw [shapeCast_1ab_ab_apply]
  show Ideal.logistic (shapeCast S512 v0 shapeCasts_S1x1x512_S512 (ix1 j)
      - multiReduction (F := Ideal) .add [0] S512
        (absf (shapeCast S2048x512 v2 shapeCasts_S1x2048x512_S2048x512)) 0x00000000#32
        reduces_S2048x512_S512 (.inl rfl) rfl (ix1 j)) = _
  rw [h1, h2]

/-- The second body's stored padding entry at column j: the weight times the padding entry. -/
theorem pad_pay (v0 v4 : Vec Ideal S1x1x512 .f32) (j : Fin 512) :
    k1_pay1 (F := Ideal) v0 v4 (ix3 (0 : Fin 1) (0 : Fin 1) j)
      = v4 (ix3 (0 : Fin 1) (0 : Fin 1) j) * v0 (ix3 (0 : Fin 1) (0 : Fin 1) j) := by
  unfold k1_pay1
  refine (shapeCast_a_11a_apply _ _ (0 : Fin 1) (0 : Fin 1) j).trans ?_
  show shapeCast S512 v4 shapeCasts_S1x1x512_S512 (ix1 j) * shapeCast S512 v0 shapeCasts_S1x1x512_S512 (ix1 j) = _
  rw [shapeCast_11a_a_apply, shapeCast_11a_a_apply]

/-- The second body's stored signal entry at row k, column j: one minus entry k of the weight row, times the
    signal entry. -/
theorem sig_pay (v2 : Vec Ideal S1x2048x512 .f32) (v6 : Vec Ideal S1x1x2048 .f32) (k : Fin 2048) (j : Fin 512) :
    k1_pay2 (F := Ideal) v2 v6 (ix3 (0 : Fin 1) k j)
      = (1 - v6 (ix3 (0 : Fin 1) (0 : Fin 1) k)) * v2 (ix3 (0 : Fin 1) k j) := by
  unfold k1_pay2
  refine (shapeCast_ab_1ab_apply _ _ (0 : Fin 1) k j).trans ?_
  show broadcastTo S2048x512 (shapeCast S2048x1
        (subf (broadcast S2048 (Scalar.ofBits (F := Ideal) .f32 0x3F800000#32)) (shapeCast S2048 v6 shapeCasts_S1x1x2048_S2048))
        shapeCasts_S2048_S2048x1) broadcasts_S2048x1_S2048x512 (ix2 k j)
      * shapeCast S2048x512 v2 shapeCasts_S1x2048x512_S2048x512 (ix2 k j) = _
  rw [broadcastTo_a1_ab_apply, shapeCast_a_a1_apply, shapeCast_1ab_ab_apply]
  show (Ideal.ofBits .f32 0x3F800000#32 - shapeCast S2048 v6 shapeCasts_S1x1x2048_S2048 (ix1 k)) * _ = _
  rw [shapeCast_11a_a_apply, Cert.GateSpec.one_word]

end Cert.KernelIdeal.Pay

end
-- ==== Proof.NormValue.lean ====
/-
  The first kernel region leaves the weights: after its 64 points, the 16 × 1 × 2048 result array holds, at
  (b, 0, t), the logistic function of the padding entry x(b, 0, t) minus the sum over the 2048 signal rows of
  |x(b, 1 + k, t)|.

  Point (b, ct) of the 16 × 4 grid stages the 2049 × 512 block of batch b, columns 512·ct … 512·ct + 511, and
  writes back the 1 × 512 block of weights of those columns. A block's coordinate in its array is the block
  index times the block size plus the coordinate inside the block, so column j of the block is column
  512·ct + j of the array, and the 64 written blocks tile the result: the point that covers (b, 0, t) is
  (b, t / 512).
-/
import proofs.«164435_j2723009265989_2_alg».proof.Proof.NormRegionI
import proofs.«164435_j2723009265989_2_alg».proof.Proof.Payloads
import proofs.«164435_j2723009265989_2_alg».proof.Proof.Spec
import Idealize.ShloMosaic.Lib.Pipeline.Value

noncomputable section

namespace Cert.KernelIdeal.NormValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.GateSpec

/-- The weights as one function of the argument: at (b, 0, t) the weight of column t of batch b. -/
def weights (x : (⟨S16x2049x2048, .f32⟩ : BufTy).Contents (Elt Ideal)) : (⟨S16x1x2048, .f32⟩ : BufTy).Contents (Elt Ideal) :=
  fun i => gate x (i 0) (i 2)

theorem hz : (![0, 0, 0] : Fin 3 → Nat) = fun _ => 0 := funext fun a => by fin_cases a <;> rfl

/-- What the body leaves, at column j: the logistic function of row 0 of its input block minus the column sum of
    the absolute values of rows 1 … 2048. -/
theorem normOut_apply (x0 : Vec Ideal S1x2049x512 .f32) (j : Fin 512) :
    normOut (F := Ideal) x0 (ix3 (0 : Fin 1) (0 : Fin 1) j)
      = Ideal.logistic (x0 (ix3 (0 : Fin 1) padRow j)
          - ∑ k : Fin 2048, max (x0 (ix3 (0 : Fin 1) (sigRow k) j)) (-(x0 (ix3 (0 : Fin 1) (sigRow k) j)))) := by
  unfold normOut
  rw [View.canon_unit_zero hz, Cert.KernelIdeal.Pay.norm_pay]
  have hp : View.ld x0 normPadRect (ix3 (0 : Fin 1) (0 : Fin 1) j) = x0 (ix3 (0 : Fin 1) padRow j) :=
    congrArg x0 (funext fun a => Fin.ext (by
      match a with
      | ⟨0, _⟩ => rfl
      | ⟨1, _⟩ => rfl
      | ⟨2, _⟩ => show 0 + 1 * j.val = j.val; omega))
  have hs : ∀ k : Fin 2048, View.ld x0 normSigRect (ix3 (0 : Fin 1) k j) = x0 (ix3 (0 : Fin 1) (sigRow k) j) := fun k =>
    congrArg x0 (funext fun a => Fin.ext (by
      match a with
      | ⟨0, _⟩ => rfl
      | ⟨1, _⟩ => show 1 + 1 * k.val = 1 + k.val; omega
      | ⟨2, _⟩ => show 0 + 1 * j.val = j.val; omega))
  rw [hp]
  simp only [hs]

section Region

variable (V : (c : Dev nD) → (b : Ref sig .tc) → Buf (Elt Ideal) ((c : Thread nD τ).loc b)) (c : Dev nD)

/-- The printed index maps, decided over the grid: the input window's block index is the output's on the batch and
    column axes, both stay at 0 on the row axis, and the output's stay in their ranges. -/
theorem idx_facts : ∀ t : Fin cfg0.N, win0_0.index t (0 : Fin 3) = win0_1.index t (0 : Fin 3)
    ∧ win0_0.index t (1 : Fin 3) = 0
    ∧ win0_0.index t (2 : Fin 3) = win0_1.index t (2 : Fin 3)
    ∧ win0_1.index t (1 : Fin 3) = 0
    ∧ win0_1.index t (0 : Fin 3) ≤ 15
    ∧ win0_1.index t (2 : Fin 3) ≤ 3 :=
  (by decide +kernel : ∀ t : Fin grid0.N, _)

/-- Every block of the result is some point's. -/
theorem idx_onto : ∀ (q0 : Fin 16) (q2 : Fin 4), ∃ t : Fin cfg0.N, win0_1.index t = ![q0.val, 0, q2.val] :=
  (by decide +kernel : ∀ (q0 : Fin 16) (q2 : Fin 4), ∃ t : Fin grid0.N, win0_1.index t = ![q0.val, 0, q2.val])

/-- The input block at point t, read at row r and column j: the argument at the output block's batch, row r,
    column 512 · (the output's column block) + j. -/
theorem normBlk_apply (t : Fin cfg0.N) (r : Fin 2049) (j : Fin 512) (i : S16x2049x2048.Idx)
    (h0 : (i 0).val = win0_1.index t (0 : Fin 3)) (h1 : (i 1).val = r.val)
    (h2 : (i 2).val = win0_1.index t (2 : Fin 3) * 512 + j.val) :
    normBlk (F := Ideal) V c 0 t (ix3 (0 : Fin 1) r j) = (V c main_arg0 : S16x2049x2048.Idx → EReal) i := by
  obtain ⟨e0, e1, e2, -, -, -⟩ := idx_facts t
  unfold normBlk
  rw [View.read_apply]
  show V c main_arg0 _ = V c main_arg0 _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 2049 + 1 * r.val = (i 1).val; rw [e1, h1]; omega
  | ⟨2, _⟩ => show win0_0.index t (2 : Fin 3) * 512 + 1 * j.val = (i 2).val; rw [e2, h2]; omega

/-- What point t writes back is block t of the weights of the argument as the region finds it. -/
theorem flushed_eq (t : Fin cfg0.N) :
    (normDat (F := Ideal) V c).flushed 1 t
      = ((cfg0.win 1).blk t).view.read (Elt Ideal) (weights (V c main_arg0)) := by
  show (cfg0.win 1).cut (grid0.coords t) ((normDat (F := Ideal) V c).after 1 t) = _
  rw [normDat_after1]
  funext y
  rw [View.read_apply]
  have hy0 : (y 0).val = 0 := by have h : (y 0).val < 1 := (y 0).isLt; omega
  have hy1 : (y 1).val = 0 := by have h : (y 1).val < 1 := (y 1).isLt; omega
  have hy2 : (y 2).val < 512 := (y 2).isLt
  obtain ⟨-, -, -, e1, b0, b2⟩ := idx_facts t
  -- the block's index y is (0, 0, j), and it sits in the array at (b, 0, 512 · ct + j)
  have hy : (cfg0.win 1).xinj (grid0.coords t) y = ix3 (0 : Fin 1) (0 : Fin 1) (⟨(y 2).val, hy2⟩ : Fin 512) :=
    funext fun a => Fin.ext (by
      match a with
      | ⟨0, _⟩ => exact hy0
      | ⟨1, _⟩ => exact hy1
      | ⟨2, _⟩ => rfl)
  have hi0 : ((((cfg0.win 1).blk t).view.emb y) 0).val = win0_1.index t (0 : Fin 3) := by
    show win0_1.index t (0 : Fin 3) * 1 + 1 * (y 0).val = _; omega
  have hi1 : ((((cfg0.win 1).blk t).view.emb y) 1).val = 0 := by
    show win0_1.index t (1 : Fin 3) * 1 + 1 * (y 1).val = _; omega
  have hi2 : ((((cfg0.win 1).blk t).view.emb y) 2).val = win0_1.index t (2 : Fin 3) * 512 + (y 2).val := by
    show win0_1.index t (2 : Fin 3) * 512 + 1 * (y 2).val = _; omega
  show normOut (F := Ideal) (normBlk (F := Ideal) V c 0 t) ((cfg0.win 1).xinj (grid0.coords t) y) = _
  rw [hy]
  refine (normOut_apply _ _).trans ?_
  unfold weights gate colNorm
  refine congrArg Ideal.logistic (congrArg₂ (· - ·) ?_ (Finset.sum_congr rfl fun k _ => ?_))
  · exact normBlk_apply V c t padRow _ _ hi0 rfl hi2
  · have hk := normBlk_apply V c t (sigRow k) ⟨(y 2).val, hy2⟩
      (ix3 ((((cfg0.win 1).blk t).view.emb y) 0) (sigRow k) ((((cfg0.win 1).blk t).view.emb y) 2)) hi0 rfl hi2
    rw [hk]

/-- An index of the result array is in point t's block iff each coordinate is in the block's range on its axis. -/
theorem mem_blk (t : Fin cfg0.N) (i : S16x1x2048.Idx) :
    i ∈ ((cfg0.win 1).blk t).view.set
      ↔ ∀ a : Fin 3, win0_1.index t a * S1x1x512.size a ≤ (i a).val
          ∧ (i a).val < win0_1.index t a * S1x1x512.size a + S1x1x512.size a := by
  show i ∈ ((View.whole main_v0).slice (win0_1.rect t)).set ↔ _
  rw [View.set_slice_whole, Rect.mem_set_unit]
  exact Iff.rfl

/-- The written blocks tile the result: (b, 0, t) lies in the block of the point with block index (b, 0, t / 512). -/
theorem cover (i : S16x1x2048.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win0_1.index t (0 : Fin 3) = (i 0).val := congrFun ht 0
  have q1 : win0_1.index t (1 : Fin 3) = 0 := congrFun ht 1
  have q2 : win0_1.index t (2 : Fin 3) = (i 2).val / 512 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1 ≤ (i 1).val ∧ (i 1).val < win0_1.index t (1 : Fin 3) * 1 + 1
    omega
  | ⟨2, _⟩ =>
    show win0_1.index t (2 : Fin 3) * 512 ≤ (i 2).val ∧ (i 2).val < win0_1.index t (2 : Fin 3) * 512 + 512
    omega

/-- The result array after the region: the weights of the argument as the region finds it. -/
theorem norm_final :
    (normDat (F := Ideal) V c).arrAt 1 cfg0.N = weights (V c main_arg0) :=
  (normDat (F := Ideal) V c).arrAt_eq_of_cover 1 (weights (V c main_arg0)) (fun t _ => flushed_eq V c t) cover

end Region

end Cert.KernelIdeal.NormValue

end
-- ==== Proof.ApplyValue.lean ====
/-
  The second region's result as one function of the two arrays it reads.

  At grid point (b, ct) the body leaves, in the 2049 × 512 result block, row 0 equal to the column weights times
  the block's row 0, and row 1 + k equal to one minus weight k of the batch, times the block's row 1 + k.  The
  column weights are entries 512·ct … 512·ct + 511 of the weight row of batch b, the block is columns
  512·ct … 512·ct + 511 of the argument's batch b, and the 64 blocks tile the 16 × 2049 × 2048 result.  So the
  result array is, entry by entry,

      (b, 0, t)     ↦ w(b, 0, t) · x(b, 0, t)
      (b, 1 + k, t) ↦ (1 − w(b, 0, k)) · x(b, 1 + k, t).
-/
import proofs.«164435_j2723009265989_2_alg».proof.Proof.ApplyRegionI
import proofs.«164435_j2723009265989_2_alg».proof.Proof.Payloads
import proofs.«164435_j2723009265989_2_alg».proof.Proof.Spec
import Idealize.ShloMosaic.Lib.Pipeline.Value

set_option maxRecDepth 16384

noncomputable section

namespace Cert.KernelIdeal.ApplyVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.GateSpec

/-! ## The result as a function of the argument and the weights -/

/-- The gated array: the padding row times the weight of its own column, signal row k times one minus the
    weight of column k. -/
def gatedBy (x : (⟨Cert.KernelIdeal.S16x2049x2048, .f32⟩ : BufTy).Contents (Elt Ideal)) (w : (⟨Cert.KernelIdeal.S16x1x2048, .f32⟩ : BufTy).Contents (Elt Ideal)) :
    (⟨Cert.KernelIdeal.S16x2049x2048, .f32⟩ : BufTy).Contents (Elt Ideal) := fun i =>
  if h : (i 1).val = 0 then w (ix3 (i 0) (0 : Fin 1) (i 2)) * x i
  else (1 - w (ix3 (i 0) (0 : Fin 1) ⟨(i 1).val - 1, by have := (i 1).isLt; change (i 1).val < 2049 at this; omega⟩)) * x i

theorem gatedBy_pad (x : (⟨Cert.KernelIdeal.S16x2049x2048, .f32⟩ : BufTy).Contents (Elt Ideal)) (w : (⟨Cert.KernelIdeal.S16x1x2048, .f32⟩ : BufTy).Contents (Elt Ideal))
    (b : Fin 16) (t : Fin 2048) :
    gatedBy x w (ix3 b padRow t) = w (ix3 b (0 : Fin 1) t) * x (ix3 b padRow t) := by
  unfold gatedBy
  rw [dif_pos (show ((ix3 b padRow t : SX.Idx) 1).val = 0 from rfl)]

theorem gatedBy_sig (x : (⟨Cert.KernelIdeal.S16x2049x2048, .f32⟩ : BufTy).Contents (Elt Ideal)) (w : (⟨Cert.KernelIdeal.S16x1x2048, .f32⟩ : BufTy).Contents (Elt Ideal))
    (b : Fin 16) (k : Fin 2048) (t : Fin 2048) :
    gatedBy x w (ix3 b (sigRow k) t) = (1 - w (ix3 b (0 : Fin 1) k)) * x (ix3 b (sigRow k) t) := by
  unfold gatedBy
  have hne : ¬ ((ix3 b (sigRow k) t : SX.Idx) 1).val = 0 := by
    show ¬ (1 + k.val = 0); omega
  rw [dif_neg hne]
  have hk : (⟨((ix3 b (sigRow k) t : SX.Idx) 1).val - 1, by have := k.isLt; show 1 + k.val - 1 < 2048; omega⟩ : Fin 2048) = k :=
    Fin.ext (by show 1 + k.val - 1 = k.val; omega)
  have h0 : ((ix3 b (sigRow k) t : SX.Idx) 0) = b := rfl
  simp only [hk, h0]

/-! ## What the body leaves in one result block -/

theorem zeros3 : (![0, 0, 0] : Fin 3 → Nat) = fun _ => 0 := funext fun a => by
  match a with
  | ⟨0, _⟩ => rfl
  | ⟨1, _⟩ => rfl
  | ⟨2, _⟩ => rfl

/-- The result block as a function of the three input blocks: row 0 is the column weights times the block's
    row 0, row 1 + k is one minus entry k of the weight row, times the block's row 1 + k. -/
def outBlk (x0 : Vec Ideal S1x2049x512 .f32) (x1 : Vec Ideal S1x1x512 .f32) (x2 : Vec Ideal S1x1x2048 .f32) :
    Vec Ideal S1x2049x512 .f32 := fun y =>
  if h : (y 1).val = 0 then x1 (ix3 (0 : Fin 1) (0 : Fin 1) (y 2)) * x0 y
  else (1 - x2 (ix3 (0 : Fin 1) (0 : Fin 1) ⟨(y 1).val - 1, by have := (y 1).isLt; change (y 1).val < 2049 at this; omega⟩)) * x0 y

/-- The two stores' payloads are the two row ranges of that function, and together they cover the block. -/
theorem applyOut_eq (x0 : Vec Ideal S1x2049x512 .f32) (x1 : Vec Ideal S1x1x512 .f32) (x2 : Vec Ideal S1x1x2048 .f32) :
    applyOut x0 x1 x2 = outBlk x0 x1 x2 := by
  funext y
  unfold applyOut
  refine View.canon_apply_of_pieces (outBlk x0 x1 x2) _ ?_ y (applyOut_cover _ _ y)
  intro p hp
  rcases List.mem_cons.mp hp with rfl | hp
  · -- rows 1 … 2048
    intro x
    obtain ⟨a, k, j, rfl⟩ : ∃ (a : Fin 1) (k : Fin 2048) (j : Fin 512), x = ix3 a k j := ⟨x 0, x 1, x 2, eq_ix3 x⟩
    obtain rfl : a = 0 := Subsingleton.elim _ _
    refine (Pay.sig_pay _ _ k j).trans ?_
    have hne : ¬ ((applySigRect.emb (ix3 (0 : Fin 1) k j)) 1).val = 0 := by
      show ¬ (1 + 1 * k.val = 0); omega
    unfold outBlk
    rw [dif_neg hne]
    have hk : (⟨((applySigRect.emb (ix3 (0 : Fin 1) k j)) 1).val - 1, by have := k.isLt; show 1 + 1 * k.val - 1 < 2048; omega⟩ : Fin 2048) = k :=
      Fin.ext (by show 1 + 1 * k.val - 1 = k.val; omega)
    rw [hk, View.ld_unit_zero (S := S1x1x2048) zeros3]
    rfl
  · rcases List.mem_cons.mp hp with rfl | hp
    · -- row 0
      intro x
      obtain ⟨a, u, j, rfl⟩ : ∃ (a : Fin 1) (u : Fin 1) (j : Fin 512), x = ix3 a u j := ⟨x 0, x 1, x 2, eq_ix3 x⟩
      obtain rfl : a = 0 := Subsingleton.elim _ _
      obtain rfl : u = 0 := Subsingleton.elim _ _
      refine (Pay.pad_pay _ _ j).trans ?_
      have h0 : ((applyPadRect.emb (ix3 (0 : Fin 1) (0 : Fin 1) j)) 1).val = 0 := rfl
      unfold outBlk
      rw [dif_pos h0, View.ld_unit_zero (S := S1x1x512) zeros3]
      have hj : (applyPadRect.emb (ix3 (0 : Fin 1) (0 : Fin 1) j)) 2 = j := Fin.ext (by show 0 + 1 * j.val = j.val; omega)
      rw [hj]
      rfl
    · simp at hp

/-! ## The blocks of the three inputs, read off the arrays -/

/-- The index maps over the 64 grid points: point t has batch t / 4 and column block t % 4; the argument,
    the column weights and the result move with both, the weight row with the batch alone. -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = t.val % 4 :=
  (by decide +kernel : ∀ t : Fin grid1.N, _)

section Blocks

variable (V : (c : Dev nD) → (b : Ref sig .tc) → Buf (Elt Ideal) ((c : Thread nD τ).loc b)) (c : Dev nD)

/-- The argument's block at point t: batch t / 4, every row, columns 512·(t % 4) + j. -/
theorem blk0_apply (t : Fin cfg1.N) (r : Fin 2049) (j : Fin 512) (i : S16x2049x2048.Idx)
    (hi0 : (i 0).val = t.val / 4) (hi1 : (i 1).val = r.val) (hi2 : (i 2).val = 512 * (t.val % 4) + j.val) :
    (applyBlk V c 0 t : Vec Ideal S1x2049x512 .f32) (ix3 (0 : Fin 1) r j) = (V c main_arg0 : S16x2049x2048.Idx → Ideal .f32) i := by
  obtain ⟨e0, e1, e2, -⟩ := idx_facts t
  show (V c main_arg0 : S16x2049x2048.Idx → Ideal .f32) (((cfg1.win 0).blk t).view.emb (ix3 (0 : Fin 1) r j)) = _
  refine congrArg _ (funext fun a => Fin.ext ?_)
  match a with
  | ⟨0, _⟩ => show win1_0.index t (0 : Fin 3) * 1 + 1 * 0 = (i 0).val; omega
  | ⟨1, _⟩ => show win1_0.index t (1 : Fin 3) * 2049 + 1 * r.val = (i 1).val; omega
  | ⟨2, _⟩ => show win1_0.index t (2 : Fin 3) * 512 + 1 * j.val = (i 2).val; omega

/-- The column weights' block at point t: batch t / 4, columns 512·(t % 4) + j. -/
theorem blk1_apply (t : Fin cfg1.N) (j : Fin 512) (i : S16x1x2048.Idx)
    (hi0 : (i 0).val = t.val / 4) (hi2 : (i 2).val = 512 * (t.val % 4) + j.val) :
    (applyBlk V c 1 t : Vec Ideal S1x1x512 .f32) (ix3 (0 : Fin 1) (0 : Fin 1) j) = (V c main_v0 : S16x1x2048.Idx → Ideal .f32) i := by
  obtain ⟨-, -, -, e0, e1, e2, -⟩ := idx_facts t
  have hi1 : (i 1).val = 0 := by have : (i 1).val < 1 := (i 1).isLt; omega
  show (V c main_v0 : S16x1x2048.Idx → Ideal .f32) (((cfg1.win 1).blk t).view.emb (ix3 (0 : Fin 1) (0 : Fin 1) j)) = _
  refine congrArg _ (funext fun a => Fin.ext ?_)
  match a with
  | ⟨0, _⟩ => show win1_1.index t (0 : Fin 3) * 1 + 1 * 0 = (i 0).val; omega
  | ⟨1, _⟩ => show win1_1.index t (1 : Fin 3) * 1 + 1 * 0 = (i 1).val; omega
  | ⟨2, _⟩ => show win1_1.index t (2 : Fin 3) * 512 + 1 * j.val = (i 2).val; omega

/-- The weight row's block at point t: the whole row of batch t / 4. -/
theorem blk2_apply (t : Fin cfg1.N) (k : Fin 2048) (i : S16x1x2048.Idx)
    (hi0 : (i 0).val = t.val / 4) (hi2 : (i 2).val = k.val) :
    (applyBlk V c 2 t : Vec Ideal S1x1x2048 .f32) (ix3 (0 : Fin 1) (0 : Fin 1) k) = (V c main_v0 : S16x1x2048.Idx → Ideal .f32) i := by
  obtain ⟨-, -, -, -, -, -, e0, e1, e2, -⟩ := idx_facts t
  have hi1 : (i 1).val = 0 := by have : (i 1).val < 1 := (i 1).isLt; omega
  show (V c main_v0 : S16x1x2048.Idx → Ideal .f32) (((cfg1.win 2).blk t).view.emb (ix3 (0 : Fin 1) (0 : Fin 1) k)) = _
  refine congrArg _ (funext fun a => Fin.ext ?_)
  match a with
  | ⟨0, _⟩ => show win1_2.index t (0 : Fin 3) * 1 + 1 * 0 = (i 0).val; omega
  | ⟨1, _⟩ => show win1_2.index t (1 : Fin 3) * 1 + 1 * 0 = (i 1).val; omega
  | ⟨2, _⟩ => show win1_2.index t (2 : Fin 3) * 2048 + 1 * k.val = (i 2).val; omega

end Blocks

/-! ## One block of the result is one block of the gated array -/

/-- If the three input blocks are the blocks at batch b, column block ct of the argument and the weights, the
    body's result block is that block of the gated array. -/
theorem outBlk_eq_gatedBy (x : (⟨Cert.KernelIdeal.S16x2049x2048, .f32⟩ : BufTy).Contents (Elt Ideal))
    (w : (⟨Cert.KernelIdeal.S16x1x2048, .f32⟩ : BufTy).Contents (Elt Ideal))
    (x0 : Vec Ideal S1x2049x512 .f32) (x1 : Vec Ideal S1x1x512 .f32) (x2 : Vec Ideal S1x1x2048 .f32) (b ct : Nat)
    (h0 : ∀ (r : Fin 2049) (j : Fin 512) (i : S16x2049x2048.Idx), (i 0).val = b → (i 1).val = r.val → (i 2).val = 512 * ct + j.val →
      x0 (ix3 (0 : Fin 1) r j) = x i)
    (h1 : ∀ (j : Fin 512) (i : S16x1x2048.Idx), (i 0).val = b → (i 2).val = 512 * ct + j.val →
      x1 (ix3 (0 : Fin 1) (0 : Fin 1) j) = w i)
    (h2 : ∀ (k : Fin 2048) (i : S16x1x2048.Idx), (i 0).val = b → (i 2).val = k.val →
      x2 (ix3 (0 : Fin 1) (0 : Fin 1) k) = w i)
    (y : S1x2049x512.Idx) (i : S16x2049x2048.Idx)
    (hi0 : (i 0).val = b) (hi1 : (i 1).val = (y 1).val) (hi2 : (i 2).val = 512 * ct + (y 2).val) :
    outBlk x0 x1 x2 y = gatedBy x w i := by
  obtain ⟨a, r, j, rfl⟩ : ∃ (a : Fin 1) (r : Fin 2049) (j : Fin 512), y = ix3 a r j := ⟨y 0, y 1, y 2, eq_ix3 y⟩
  obtain rfl : a = 0 := Subsingleton.elim _ _
  obtain ⟨b', r', t', rfl⟩ : ∃ (b' : Fin 16) (r' : Fin 2049) (t' : Fin 2048), i = ix3 b' r' t' := ⟨i 0, i 1, i 2, eq_ix3 i⟩
  have hb : b'.val = b := hi0
  have hr : r'.val = r.val := hi1
  have ht : t'.val = 512 * ct + j.val := hi2
  obtain rfl : r' = r := Fin.ext hr
  unfold outBlk gatedBy
  by_cases hz : r'.val = 0
  · rw [dif_pos (show ((ix3 (0 : Fin 1) r' j : S1x2049x512.Idx) 1).val = 0 from hz),
      dif_pos (show ((ix3 b' r' t' : S16x2049x2048.Idx) 1).val = 0 from hz)]
    rw [h0 r' j (ix3 b' r' t') hb rfl ht]
    rw [h1 j (ix3 b' (0 : Fin 1) t') hb ht]
  · rw [dif_neg (show ¬ ((ix3 (0 : Fin 1) r' j : S1x2049x512.Idx) 1).val = 0 from hz),
      dif_neg (show ¬ ((ix3 b' r' t' : S16x2049x2048.Idx) 1).val = 0 from hz)]
    rw [h0 r' j (ix3 b' r' t') hb rfl ht]
    have hk : r'.val - 1 < 2048 := by have := r'.isLt; omega
    rw [h2 ⟨r'.val - 1, hk⟩ (ix3 b' (0 : Fin 1) ⟨r'.val - 1, hk⟩) hb rfl]

/-! ## From the blocks to the array -/

section Array

variable (V : (c : Dev nD) → (b : Ref sig .tc) → Buf (Elt Ideal) ((c : Thread nD τ).loc b)) (c : Dev nD)

/-- What point t writes back is block t of the gated array. -/
theorem flushed_eq (t : Fin cfg1.N) :
    (applyDat (F := Ideal) V c).flushed 3 t
      = ((cfg1.win 3).blk t).view.read (Elt Ideal) (gatedBy (V c main_arg0) (V c main_v0)) := by
  show (cfg1.win 3).cut (grid1.coords t) ((applyDat (F := Ideal) V c).after 3 t) = _
  rw [applyDat_after3, applyOut_eq]
  obtain ⟨-, -, -, -, -, -, -, -, -, e0, e1, e2⟩ := idx_facts t
  funext y
  show outBlk (applyBlk V c 0 t) (applyBlk V c 1 t) (applyBlk V c 2 t) y
    = gatedBy (V c main_arg0) (V c main_v0) (((cfg1.win 3).blk t).view.emb y)
  refine outBlk_eq_gatedBy (V c main_arg0) (V c main_v0) (applyBlk V c 0 t) (applyBlk V c 1 t) (applyBlk V c 2 t)
    (t.val / 4) (t.val % 4) (fun r j i hi0 hi1 hi2 => blk0_apply V c t r j i hi0 hi1 hi2)
    (fun j i hi0 hi2 => blk1_apply V c t j i hi0 hi2) (fun k i hi0 hi2 => blk2_apply V c t k i hi0 hi2)
    y (((cfg1.win 3).blk t).view.emb y) ?_ ?_ ?_
  · have hy : (y 0).val < 1 := (y 0).isLt
    show win1_3.index t (0 : Fin 3) * 1 + 1 * (y 0).val = t.val / 4; omega
  · show win1_3.index t (1 : Fin 3) * 2049 + 1 * (y 1).val = (y 1).val; omega
  · show win1_3.index t (2 : Fin 3) * 512 + 1 * (y 2).val = 512 * (t.val % 4) + (y 2).val; omega

/-- An index of the result array is in point t's block iff each coordinate is in the block's range on its axis. -/
theorem mem_blk (t : Fin cfg1.N) (i : S16x2049x2048.Idx) :
    i ∈ ((cfg1.win 3).blk t).view.set ↔ ∀ a : Fin 3, win1_3.index t a * S1x2049x512.size a ≤ (i a).val ∧ (i a).val < win1_3.index t a * S1x2049x512.size a + S1x2049x512.size a := by
  show i ∈ ((View.whole main_v1).slice (win1_3.rect t)).set ↔ _
  rw [View.set_slice_whole, Rect.mem_set_unit]
  exact Iff.rfl

/-- The 64 blocks tile the array: index (b, r, t) lies in the block of point 4·b + t / 512. -/
theorem covered (i : S16x2049x2048.Idx) :
    ∃ t : Fin cfg1.N, (cfg1.win 3).flush t = true ∧ i ∈ ((cfg1.win 3).blk t).view.set := by
  have hi0 : (i 0).val < 16 := (i 0).isLt
  have hi1 : (i 1).val < 2049 := (i 1).isLt
  have hi2 : (i 2).val < 2048 := (i 2).isLt
  have hN : cfg1.N = 64 := by decide
  let t : Fin cfg1.N := ⟨4 * (i 0).val + (i 2).val / 512, by rw [hN]; omega⟩
  have htv : t.val = 4 * (i 0).val + (i 2).val / 512 := rfl
  obtain ⟨-, -, -, -, -, -, -, -, -, e0, e1, e2⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2049 ≤ (i 1).val ∧ (i 1).val < win1_3.index t (1 : Fin 3) * 2049 + 2049; omega
  | ⟨2, _⟩ => show win1_3.index t (2 : Fin 3) * 512 ≤ (i 2).val ∧ (i 2).val < win1_3.index t (2 : Fin 3) * 512 + 512; omega

/-- The result array after the region is the gated array of the argument and the weights as the region found them. -/
theorem apply_final :
    (Cert.KernelIdeal.Hand.applyDat (F := Ideal) V c).arrAt 3 Cert.KernelIdeal.cfg1.N
      = gatedBy (V c Cert.KernelIdeal.main_arg0) (V c Cert.KernelIdeal.main_v0) :=
  (applyDat (F := Ideal) V c).arrAt_eq_of_cover 3 (gatedBy (V c main_arg0) (V c main_v0))
    (fun t _ => flushed_eq V c t) (covered)

end Array

end Cert.KernelIdeal.ApplyVal

end
-- ==== Proof.KernelValue.lean ====
/-
  The kernel's result as a function of its argument, at extended reals.

  The second region leaves in the result array the gating of the argument by whatever weights it found in
  the weights array (padding row times the column's weight, signal row k times one minus weight k); the first
  region leaves in the weights array the weights computed from the argument; the argument is never written.
  Composing the two, the result is the specification's `gated` of the argument the program was launched
  with, entry by entry.
-/
import proofs.«164435_j2723009265989_2_alg».proof.Proof.RunI
import proofs.«164435_j2723009265989_2_alg».proof.Proof.NormValue
import proofs.«164435_j2723009265989_2_alg».proof.Proof.ApplyValue
import proofs.«164435_j2723009265989_2_alg».proof.Proof.Spec

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Hand Cert.GateSpec
open Cert.KernelIdeal.NormValue Cert.KernelIdeal.ApplyVal

/-- Gating by the weights computed from the same argument is the specification: on the padding row the column's own
    weight, on signal row `k` the complement of weight `k`. -/
theorem gatedBy_weights (x : (⟨S16x2049x2048, .f32⟩ : BufTy).Contents (Elt Ideal)) :
    gatedBy x (weights x) = gated x := by
  funext i
  obtain ⟨b, r, t, rfl⟩ : ∃ (b : Fin 16) (r : Fin 2049) (t : Fin 2048), i = ix3 b r t := ⟨i 0, i 1, i 2, eq_ix3 i⟩
  by_cases hr : r.val = 0
  · obtain rfl : r = padRow := Fin.ext hr
    rw [gatedBy_pad, gated_pad]; rfl
  · obtain ⟨k, rfl⟩ : ∃ k : Fin 2048, r = sigRow k :=
      ⟨⟨r.val - 1, by have := r.isLt; omega⟩, Fin.ext (by show r.val = 1 + (r.val - 1); omega)⟩
    rw [gatedBy_sig, gated_sig]; rfl

section

variable (m : (ℓ : Loc nD τ sig) → Buf (Elt Ideal) ℓ) (ρ : Dev nD → PrngReg)

/-- What the second region's write-backs leave in the result array is `gated` of the launch argument. -/
theorem result_eq_gated (c : Dev nD) :
    (applyDat (F := Ideal) (entryApply m ρ) c).arrAt 3 cfg1.N = gated (m ((c.tc : Thread nD τ).loc main_arg0)) := by
  rw [apply_final (entryApply m ρ) c, entryApply_arg0 m ρ c, entryApply_weights m ρ c, norm_final (entryNorm m ρ) c]
  exact gatedBy_weights _

/-- The kernel's run at extended reals: every weakly fair execution terminates, nothing faulting, with the result array
    at `gated` of the argument and the argument as launched. -/
theorem run_gated : θ_run defs (onTc (τ := τ) (main (F := Ideal))) ⟨m, fun _ => 0, ρ⟩ (fun r => ∀ c : Dev nD,
      r.2.mem ((c.tc : Thread nD τ).loc main_v1) = gated (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_eq_gated m ρ c), (h c).2⟩) (run_result (F := Ideal) m ρ)

end

end Cert.KernelIdeal.KernelValue

end
-- ==== Proof.RefGated.lean ====
/-
  The reference program computes the function of the shared specification: read at an index, its last stage is
  `Cert.GateSpec.gated` of its argument.

  The program slices the padding row x(b, 0, t) and the signal x(b, 1 + k, t) out of the argument, sums the
  signal's absolute values down each column, forms the weight w = 1 / (1 + exp (-(pad - norm))) with a divide, an
  add, an exponential and a negate (over the extended reals that expression is the logistic function by its
  definition), scales the padding row by w, scales signal row k by 1 - w(b, k), and joins the two pieces along
  the row axis: row 0 of the result is the padding piece, row 1 + k is row k of the signal piece.
-/
import proofs.«164435_j2723009265989_2_alg».proof.Proof.Spec
import proofs.«164435_j2723009265989_2_alg».proof.Proof.Gen.ReferenceIdeal.Read
import Idealize.ShloMosaic.Lib.Pipeline.Value

noncomputable section

namespace Cert.ReferenceIdeal.RefValue

open Cert.ReferenceIdeal Cert.ReferenceIdeal.Gen Cert.ReferenceIdeal.Read Cert.GateSpec
open Idealize.ShloMosaic Idealize.ShloMosaic.TcCoe Idealize.SL.Sem Idealize.ShloMosaic.StableHlo Idealize.ShloMosaic.ValueIdx

/-- The padding entry: the reshaped slice of row 0, at (b, t), is x(b, 0, t). -/
theorem pad_at (x : (⟨S16x2049x2048, .f32⟩ : BufTy).Contents (Elt Ideal)) (b : Fin 16) (t : Fin 2048) :
    val_main_v1 (F := Ideal) x (ix2 b t) = x (ix3 b padRow t) := by
  rw [val_main_v1_apply, val_main_v0_apply]
  refine congrArg x (funext fun a => Fin.ext ?_)
  match a with
  | ⟨0, _⟩ => show (b.val * 2048 + t.val) / 2048 = b.val; have := t.isLt; omega
  | ⟨1, _⟩ => rfl
  | ⟨2, _⟩ => show (b.val * 2048 + t.val) % 2048 = t.val; have := t.isLt; omega

/-- The signal entry: the slice of rows 1 … 2048, at (b, k, t), is x(b, 1 + k, t). -/
theorem sig_at (x : (⟨S16x2049x2048, .f32⟩ : BufTy).Contents (Elt Ideal)) (b : Fin 16) (k t : Fin 2048) :
    val_main_v2 (F := Ideal) x (ix3 b k t) = x (ix3 b (sigRow k) t) := by
  rw [val_main_v2_apply]
  refine congrArg x (funext fun a => Fin.ext ?_)
  match a with
  | ⟨0, _⟩ => rfl
  | ⟨1, _⟩ => rfl
  | ⟨2, _⟩ => rfl

/-- The column sum of absolute values: the reduction starts from the zero word, which denotes 0, and the absolute
    value of v is max v (-v). -/
theorem norm_at (x : (⟨S16x2049x2048, .f32⟩ : BufTy).Contents (Elt Ideal)) (b : Fin 16) (t : Fin 2048) :
    val_main_v4 (F := Ideal) x (ix2 b t) = colNorm x b t := by
  rw [val_main_v4_apply, val_main_cst_apply, Ideal.ofBits_def, Ideal.ofBits_zero_f32, zero_add]
  unfold colNorm
  refine Finset.sum_congr rfl fun k _ => ?_
  have hk : idx_main_v4 (ix2 b t) k = ix3 b k t :=
    funext fun a => Fin.ext (by match a with | ⟨0, _⟩ => rfl | ⟨1, _⟩ => rfl | ⟨2, _⟩ => rfl)
  rw [hk, val_main_v3_apply, sig_at, Ideal.hostAbsf_def, Ideal.absf_def]

/-- The weight: 1 / (1 + exp (-(pad - norm))) is the logistic function of pad - norm. -/
theorem gate_at (x : (⟨S16x2049x2048, .f32⟩ : BufTy).Contents (Elt Ideal)) (b : Fin 16) (t : Fin 2048) :
    val_main_v11 (F := Ideal) x (ix2 b t) = gate x b t := by
  rw [val_main_v11_apply, val_main_v10_apply, val_main_cst_1_apply, val_main_v9_apply, val_main_v8_apply,
    val_main_cst_0_apply, val_main_v7_apply, val_main_v6_apply, val_main_v5_apply, pad_at, norm_at]
  simp only [Ideal.hostDivf_def, Ideal.hostUnary_exp_def, Ideal.hostNegf_def, Ideal.negf_def, Ideal.addf_def,
    Ideal.subf_def, Ideal.ofBits_def, one_word]
  rfl

/-- The complement of the weight, broadcast along the columns: at (b, k, t) it is 1 - w(b, k). -/
theorem compl_at (x : (⟨S16x2049x2048, .f32⟩ : BufTy).Contents (Elt Ideal)) (b : Fin 16) (k t : Fin 2048) :
    val_main_v17 (F := Ideal) x (ix3 b k t) = 1 - gate x b k := by
  have h17 : idx_main_v16 (idx_main_v17 (ix3 b k t)) = ix2 b k :=
    funext fun a => Fin.ext (by match a with | ⟨0, _⟩ => rfl | ⟨1, _⟩ => rfl)
  rw [val_main_v17_apply, val_main_v16_apply, h17, val_main_v15_apply, val_main_v14_apply, val_main_cst_2_apply,
    gate_at, Ideal.subf_def, Ideal.ofBits_def, one_word]

/-- Row 0 of the result is the padding piece: the weight times the padding entry. -/
theorem ref_pad (x : (⟨S16x2049x2048, .f32⟩ : BufTy).Contents (Elt Ideal)) (b : Fin 16) (t : Fin 2048) :
    val_main_v19 (F := Ideal) x (ix3 b padRow t) = gate x b t * x (ix3 b padRow t) := by
  unfold val_main_v19
  rw [concatenate_pair_apply_left (t := S16x2049x2048) (s₁ := S16x1x2048) (s₂ := S16x2048x2048) (1 : Fin 3) _ _
    concatenates_S16x1x2048_S16x2048x2048_S16x2049x2048_d1
    (ix3 b padRow t) rfl (ix3 b (0 : Fin 1) t)
    (fun a => by match a with | ⟨0, _⟩ => rfl | ⟨1, _⟩ => rfl | ⟨2, _⟩ => rfl)]
  have h13 : idx_main_v13 (ix3 b (0 : Fin 1) t) = ix2 b t :=
    funext fun a => Fin.ext (by match a with | ⟨0, _⟩ => rfl | ⟨1, _⟩ => rfl)
  rw [val_main_v13_apply, h13, val_main_v12_apply, gate_at, pad_at, Ideal.mulf_def]

/-- Row 1 + k of the result is row k of the signal piece: the complement of column k's weight times the signal
    entry. -/
theorem ref_sig (x : (⟨S16x2049x2048, .f32⟩ : BufTy).Contents (Elt Ideal)) (b : Fin 16) (k t : Fin 2048) :
    val_main_v19 (F := Ideal) x (ix3 b (sigRow k) t) = (1 - gate x b k) * x (ix3 b (sigRow k) t) := by
  unfold val_main_v19
  rw [concatenate_pair_apply_right (t := S16x2049x2048) (s₁ := S16x1x2048) (s₂ := S16x2048x2048) (1 : Fin 3) _ _
    concatenates_S16x1x2048_S16x2048x2048_S16x2049x2048_d1
    (ix3 b (sigRow k) t) rfl rfl (ix3 b k t)
    (fun a ha => by
      match a with
      | ⟨0, _⟩ => rfl
      | ⟨1, _⟩ => exact absurd rfl ha
      | ⟨2, _⟩ => rfl)
    (by show k.val + 1 = 1 + k.val; omega)]
  rw [val_main_v18_apply, compl_at, sig_at, Ideal.mulf_def]

/-- The reference program's result is the specification's function of its argument. -/
theorem ref_eq_gated (x : (⟨S16x2049x2048, .f32⟩ : BufTy).Contents (Elt Ideal)) :
    val_main_v19 (F := Ideal) x = gated x := by
  funext i
  obtain ⟨b, r, t, rfl⟩ : ∃ (b : Fin 16) (r : Fin 2049) (t : Fin 2048), i = ix3 b r t := ⟨i 0, i 1, i 2, eq_ix3 i⟩
  by_cases hr : r.val = 0
  · obtain rfl : r = padRow := Fin.ext hr
    rw [ref_pad, gated_pad]
  · obtain ⟨k, rfl⟩ : ∃ k : Fin 2048, r = sigRow k :=
      ⟨⟨r.val - 1, by have := r.isLt; omega⟩, Fin.ext (by show r.val = 1 + (r.val - 1); omega)⟩
    rw [ref_sig, gated_sig]

end Cert.ReferenceIdeal.RefValue

end
-- ==== Proof.lean ====
/-
  The certificate: a two-pass gating kernel against its one-pass reference.

  The argument `x` is a 16 × 2049 × 2048 array: per batch a padding row (row 0) and a square signal (rows
  1 … 2048). For batch `b` and column `t` let

      w(b, t) = logistic (x(b, 0, t) − ∑ k, |x(b, 1 + k, t)|),

  the first component of the two-way softmax of the padding entry against the L1 norm of the signal's column.
  Both programs return the array whose padding row is w(b, t) · x(b, 0, t) and whose signal row k is
  (1 − w(b, k)) · x(b, 1 + k, t): the weight vector of a batch is used once along the columns and once along the
  rows (`Cert.GateSpec.gated`, Proof/Spec.lean).

  The kernel computes it in two passes over the argument. The first pass (Proof/NormRegion*.lean) writes the
  weights, one block of 512 columns per grid point; the second (Proof/ApplyRegion*.lean) reads the argument's
  block, the weights of its columns and the whole weight row of the batch, and writes the gated block. The two
  passes are two pipelined regions run one after the other (Proof/Run*.lean): every execution terminates, nothing
  faults, and every buffer's final contents are named — the argument as launched, which is the frame claim of the
  kernel as printed and of its idealization (the same text read at two float instances), and the result at the
  blocks the second pass wrote. At extended reals those blocks are blocks of `gated x` (Proof/NormValue.lean,
  Proof/ApplyValue.lean, Proof/KernelValue.lean, over the bodies' arithmetic read at an index in
  Proof/Payloads.lean).

  The reference slices the argument, sums absolute values along the signal's rows, expands the logistic function
  as 1 / (1 + exp (−z)), gates, and concatenates the padding row with the signal. At extended reals that expansion
  IS the logistic function, and the result is `gated x` entry by entry (Proof/RefGated.lean).

  No law that fails at an infinity is used — the two programs apply the same operations to each entry, and the two
  column sums differ only in how their 2048 terms are indexed — so the precondition that the input is finite is
  never opened. The idealization rewrote no operation, so there is nothing to preserve beyond the text itself.
-/
import proofs.«164435_j2723009265989_2_alg».proof.Defs
import proofs.«164435_j2723009265989_2_alg».proof.Proof.Gen.Kernel
import proofs.«164435_j2723009265989_2_alg».proof.Proof.Gen.KernelIdeal
import proofs.«164435_j2723009265989_2_alg».proof.Proof.Gen.ReferenceIdeal
import proofs.«164435_j2723009265989_2_alg».proof.Proof.Gen.Pre_finite_inputs
import proofs.«164435_j2723009265989_2_alg».proof.Proof.Gen.ReferenceIdeal.Run
import proofs.«164435_j2723009265989_2_alg».proof.Proof.Gen.ReferenceIdeal.Read
import proofs.«164435_j2723009265989_2_alg».proof.Proof.RunK
import proofs.«164435_j2723009265989_2_alg».proof.Proof.KernelValue
import proofs.«164435_j2723009265989_2_alg».proof.Proof.RefGated
import Idealize.ShloMosaic.Adequacy
import Idealize.ShloMosaic.Init

noncomputable section

namespace Cert.Proof

open Idealize.ShloMosaic Idealize.ShloMosaic.TcCoe Idealize.SL.Sem

/-- The kernel as printed runs to the end and leaves its argument as launched. -/
theorem frame_kernel : Cert.frame_Kernel := fun m ρ _ => Cert.Kernel.Hand.frame (F := Bits) m ρ

/-- So does its idealization: the same two regions, read at extended reals. -/
theorem frame_kernelIdeal : Cert.frame_KernelIdeal := fun m ρ _ => Cert.KernelIdeal.Hand.frame (F := Ideal) m ρ

/-- The reference is a line of host operations: it runs to the end, and no operation writes the argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At extended reals, from memories that agree on the argument, both programs end with the result at `gated` of the
    argument: the kernel by its two regions' blocks, the reference by its operations read at an index. -/
theorem algebraic : Cert.algebraic_KernelIdeal_ReferenceIdeal := by
  intro m ρ m' ρ' _ hagree
  refine ⟨fun c => Cert.GateSpec.gated (m ((c.tc : Thread Cert.KernelIdeal.nD Cert.KernelIdeal.τ).loc Cert.KernelIdeal.main_arg0)),
    Cert.KernelIdeal.KernelValue.run_gated m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.ref_eq_gated, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
